-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x16 : Shape := ⟨4, ![16, 512, 512, 16]⟩
abbrev S16x384x384x2 : Shape := ⟨4, ![16, 384, 384, 2]⟩
abbrev S_ : Shape := ⟨0, ![]⟩

class Facts : Prop where
  bcast_S_S16x512x512x16 : S_.BroadcastsInDim S16x512x512x16 (![] : Fin 0 → Fin S16x512x512x16.rank)
  reducesTo_S16x512x512x16_S_d0_1_2_3 : S16x512x512x16.ReducesTo [0, 1, 2, 3] S_
  h_S_ : 0 < S_.numel
  bcast_S_S16x384x384x2 : S_.BroadcastsInDim S16x384x384x2 (![] : Fin 0 → Fin S16x384x384x2.rank)
  reducesTo_S16x384x384x2_S_d0_1_2_3 : S16x384x384x2.ReducesTo [0, 1, 2, 3] S_

variable [Facts]

def fn {F : FTy → Type} [FloatOps F] (main_arg0 : FVec F S16x512x512x16 .f32) (main_arg1 : FVec F S16x384x384x2 .f32) : IVec S_ 1 :=
  let main_v0 : FVec F S16x512x512x16 .f32 := Host.absf main_arg0
  let main_cst : FVec F S_ .f32 := constant S_ .f32 0x7F800000#32
  let main_v1 : FVec F S16x512x512x16 .f32 := broadcastInDim S16x512x512x16 ![] bcast_S_S16x512x512x16 main_cst
  let main_v2 : IVec S16x512x512x16 1 := cmpf .olt main_v0 main_v1
  let main_c : IVec S_ 1 := constantI S_ 1 1#1
  let main_v3 : IVec S_ 1 := (fun x v => Host.reduce IntOp.andi x v reducesTo_S16x512x512x16_S_d0_1_2_3 h_S_) main_v2 main_c
  let main_v4 : FVec F S16x384x384x2 .f32 := Host.absf main_arg1
  let main_cst_0 : FVec F S_ .f32 := constant S_ .f32 0x7F800000#32
  let main_v5 : FVec F S16x384x384x2 .f32 := broadcastInDim S16x384x384x2 ![] bcast_S_S16x384x384x2 main_cst_0
  let main_v6 : IVec S16x384x384x2 1 := cmpf .olt main_v4 main_v5
  let main_c_1 : IVec S_ 1 := constantI S_ 1 1#1
  let main_v7 : IVec S_ 1 := (fun x v => Host.reduce IntOp.andi x v reducesTo_S16x384x384x2_S_d0_1_2_3 h_S_) main_v6 main_c_1
  let main_v8 : IVec S_ 1 := andi main_v3 main_v7
  main_v8
-- ==== Kernel.lean ====
abbrev S16x512x512x16 : Shape := ⟨4, ![16, 512, 512, 16]⟩
abbrev S16x384x384x2 : Shape := ⟨4, ![16, 384, 384, 2]⟩
abbrev S16x384x384x1 : Shape := ⟨4, ![16, 384, 384, 1]⟩
abbrev S16x384x384 : Shape := ⟨3, ![16, 384, 384]⟩
abbrev S_ : Shape := ⟨0, ![]⟩
abbrev S16 : Shape := ⟨1, ![16]⟩
abbrev S16x1x1 : Shape := ⟨3, ![16, 1, 1]⟩
abbrev S16x384x384x3 : Shape := ⟨4, ![16, 384, 384, 3]⟩
abbrev S16x384x384x16 : Shape := ⟨4, ![16, 384, 384, 16]⟩
abbrev S1x16x384x16 : Shape := ⟨4, ![1, 16, 384, 16]⟩
abbrev S1x16x384 : Shape := ⟨3, ![1, 16, 384]⟩
abbrev S1x16x384x1 : Shape := ⟨4, ![1, 16, 384, 1]⟩

abbrev nBuf : Space → Nat
  | .hbm => 197
  | .vmem => 18
  | .smem => 0
  | _ => 0

abbrev hbmTy0_0 (i : Nat) : BufTy := match i % 128 with
  | 0 => ⟨S16x512x512x16, .f32⟩
  | 1 => ⟨S16x384x384x2, .f32⟩
  | 2 => ⟨S16x384x384x1, .f32⟩
  | 3 => ⟨S16x384x384, .f32⟩
  | 4 => ⟨S_, .f32⟩
  | 5 => ⟨S16x384x384, .f32⟩
  | 6 => ⟨S16x384x384, .f32⟩
  | 7 => ⟨S_, .f32⟩
  | 8 => ⟨S16x384x384, .f32⟩
  | 9 => ⟨S16x384x384, .f32⟩
  | 10 => ⟨S_, .f32⟩
  | 11 => ⟨S16x384x384, .f32⟩
  | 12 => ⟨S16x384x384, .f32⟩
  | 13 => ⟨S16x384x384x1, .f32⟩
  | 14 => ⟨S16x384x384, .f32⟩
  | 15 => ⟨S_, .f32⟩
  | 16 => ⟨S16x384x384, .f32⟩
  | 17 => ⟨S16x384x384, .f32⟩
  | 18 => ⟨S_, .f32⟩
  | 19 => ⟨S16x384x384, .f32⟩
  | 20 => ⟨S16x384x384, .f32⟩
  | 21 => ⟨S_, .f32⟩
  | 22 => ⟨S16x384x384, .f32⟩
  | 23 => ⟨S16x384x384, .f32⟩
  | 24 => ⟨S16x384x384, .f32⟩
  | 25 => ⟨S16x384x384, .f32⟩
  | 26 => ⟨S_, .f32⟩
  | 27 => ⟨S16x384x384, .f32⟩
  | 28 => ⟨S16x384x384, .f32⟩
  | 29 => ⟨S_, .f32⟩
  | 30 => ⟨S16x384x384, .f32⟩
  | 31 => ⟨S16x384x384, .f32⟩
  | 32 => ⟨S16x384x384, .f32⟩
  | 33 => ⟨S16x384x384, .f32⟩
  | 34 => ⟨S16x384x384, .f32⟩
  | 35 => ⟨S16x384x384, .f32⟩
  | 36 => ⟨S16x384x384, .f32⟩
  | 37 => ⟨S16x384x384, .f32⟩
  | 38 => ⟨S16x384x384, .f32⟩
  | 39 => ⟨S16x384x384, .f32⟩
  | 40 => ⟨S16x384x384, .f32⟩
  | 41 => ⟨S16x384x384, .f32⟩
  | 42 => ⟨S16x384x384, .f32⟩
  | 43 => ⟨S16x384x384, .f32⟩
  | 44 => ⟨S16x384x384, .i32⟩
  | 45 => ⟨S_, .i32⟩
  | 46 => ⟨S_, .i32⟩
  | 47 => ⟨S_, .i32⟩
  | 48 => ⟨S16x384x384, .i32⟩
  | 49 => ⟨S16x384x384, .i32⟩
  | 50 => ⟨S_, .i32⟩
  | 51 => ⟨S16x384x384, .i32⟩
  | 52 => ⟨S16x384x384, .i32⟩
  | 53 => ⟨S16x384x384, .i32⟩
  | 54 => ⟨S_, .i32⟩
  | 55 => ⟨S_, .i32⟩
  | 56 => ⟨S_, .i32⟩
  | 57 => ⟨S16x384x384, .i32⟩
  | 58 => ⟨S16x384x384, .i32⟩
  | 59 => ⟨S_, .i32⟩
  | 60 => ⟨S16x384x384, .i32⟩
  | 61 => ⟨S16x384x384, .i32⟩
  | 62 => ⟨S16x384x384, .i32⟩
  | 63 => ⟨S_, .i32⟩
  | 64 => ⟨S_, .i32⟩
  | 65 => ⟨S_, .i32⟩
  | 66 => ⟨S16x384x384, .i32⟩
  | 67 => ⟨S16x384x384, .i32⟩
  | 68 => ⟨S_, .i32⟩
  | 69 => ⟨S16x384x384, .i32⟩
  | 70 => ⟨S16x384x384, .i32⟩
  | 71 => ⟨S16x384x384, .i32⟩
  | 72 => ⟨S_, .i32⟩
  | 73 => ⟨S_, .i32⟩
  | 74 => ⟨S_, .i32⟩
  | 75 => ⟨S16x384x384, .i32⟩
  | 76 => ⟨S16x384x384, .i32⟩
  | 77 => ⟨S_, .i32⟩
  | 78 => ⟨S16x384x384, .i32⟩
  | 79 => ⟨S16x384x384, .i32⟩
  | 80 => ⟨S16, .i32⟩
  | 81 => ⟨S16x1x1, .i32⟩
  | 82 => ⟨S_, .i32⟩
  | 83 => ⟨S16x1x1, .i32⟩
  | 84 => ⟨S16x1x1, .i1⟩
  | 85 => ⟨S_, .i32⟩
  | 86 => ⟨S16x1x1, .i32⟩
  | 87 => ⟨S16x1x1, .i32⟩
  | 88 => ⟨S16x1x1, .i32⟩
  | 89 => ⟨S_, .i32⟩
  | 90 => ⟨S16x384x384, .i32⟩
  | 91 => ⟨S16x384x384, .i1⟩
  | 92 => ⟨S_, .i32⟩
  | 93 => ⟨S16x384x384, .i32⟩
  | 94 => ⟨S16x384x384, .i32⟩
  | 95 => ⟨S16x384x384, .i32⟩
  | 96 => ⟨S_, .i32⟩
  | 97 => ⟨S16x384x384, .i32⟩
  | 98 => ⟨S16x384x384, .i1⟩
  | 99 => ⟨S_, .i32⟩
  | 100 => ⟨S16x384x384, .i32⟩
  | 101 => ⟨S16x384x384, .i32⟩
  | 102 => ⟨S16x384x384, .i32⟩
  | 103 => ⟨S16x384x384, .i32⟩
  | 104 => ⟨S16x384x384x1, .i32⟩
  | 105 => ⟨S16x384x384x1, .i32⟩
  | 106 => ⟨S16x384x384x1, .i32⟩
  | 107 => ⟨S16x384x384x3, .i32⟩
  | 108 => ⟨S16x384x384x16, .f32⟩
  | 109 => ⟨S16, .i32⟩
  | 110 => ⟨S16x1x1, .i32⟩
  | 111 => ⟨S_, .i32⟩
  | 112 => ⟨S16x1x1, .i32⟩
  | 113 => ⟨S16x1x1, .i1⟩
  | 114 => ⟨S_, .i32⟩
  | 115 => ⟨S16x1x1, .i32⟩
  | 116 => ⟨S16x1x1, .i32⟩
  | 117 => ⟨S16x1x1, .i32⟩
  | 118 => ⟨S_, .i32⟩
  | 119 => ⟨S16x384x384, .i32⟩
  | 120 => ⟨S16x384x384, .i1⟩
  | 121 => ⟨S_, .i32⟩
  | 122 => ⟨S16x384x384, .i32⟩
  | 123 => ⟨S16x384x384, .i32⟩
  | 124 => ⟨S16x384x384, .i32⟩
  | 125 => ⟨S_, .i32⟩
  | 126 => ⟨S16x384x384, .i32⟩
  | 127 => ⟨S16x384x384, .i1⟩
  | _ => ⟨S16x512x512x16, .f32⟩

abbrev hbmTy0_1 (i : Nat) : BufTy := match i % 128 with
  | 0 => ⟨S_, .i32⟩
  | 1 => ⟨S16x384x384, .i32⟩
  | 2 => ⟨S16x384x384, .i32⟩
  | 3 => ⟨S16x384x384, .i32⟩
  | 4 => ⟨S16x384x384, .i32⟩
  | 5 => ⟨S16x384x384x1, .i32⟩
  | 6 => ⟨S16x384x384x1, .i32⟩
  | 7 => ⟨S16x384x384x1, .i32⟩
  | 8 => ⟨S16x384x384x3, .i32⟩
  | 9 => ⟨S16x384x384x16, .f32⟩
  | 10 => ⟨S16, .i32⟩
  | 11 => ⟨S16x1x1, .i32⟩
  | 12 => ⟨S_, .i32⟩
  | 13 => ⟨S16x1x1, .i32⟩
  | 14 => ⟨S16x1x1, .i1⟩
  | 15 => ⟨S_, .i32⟩
  | 16 => ⟨S16x1x1, .i32⟩
  | 17 => ⟨S16x1x1, .i32⟩
  | 18 => ⟨S16x1x1, .i32⟩
  | 19 => ⟨S_, .i32⟩
  | 20 => ⟨S16x384x384, .i32⟩
  | 21 => ⟨S16x384x384, .i1⟩
  | 22 => ⟨S_, .i32⟩
  | 23 => ⟨S16x384x384, .i32⟩
  | 24 => ⟨S16x384x384, .i32⟩
  | 25 => ⟨S16x384x384, .i32⟩
  | 26 => ⟨S_, .i32⟩
  | 27 => ⟨S16x384x384, .i32⟩
  | 28 => ⟨S16x384x384, .i1⟩
  | 29 => ⟨S_, .i32⟩
  | 30 => ⟨S16x384x384, .i32⟩
  | 31 => ⟨S16x384x384, .i32⟩
  | 32 => ⟨S16x384x384, .i32⟩
  | 33 => ⟨S16x384x384, .i32⟩
  | 34 => ⟨S16x384x384x1, .i32⟩
  | 35 => ⟨S16x384x384x1, .i32⟩
  | 36 => ⟨S16x384x384x1, .i32⟩
  | 37 => ⟨S16x384x384x3, .i32⟩
  | 38 => ⟨S16x384x384x16, .f32⟩
  | 39 => ⟨S16, .i32⟩
  | 40 => ⟨S16x1x1, .i32⟩
  | 41 => ⟨S_, .i32⟩
  | 42 => ⟨S16x1x1, .i32⟩
  | 43 => ⟨S16x1x1, .i1⟩
  | 44 => ⟨S_, .i32⟩
  | 45 => ⟨S16x1x1, .i32⟩
  | 46 => ⟨S16x1x1, .i32⟩
  | 47 => ⟨S16x1x1, .i32⟩
  | 48 => ⟨S_, .i32⟩
  | 49 => ⟨S16x384x384, .i32⟩
  | 50 => ⟨S16x384x384, .i1⟩
  | 51 => ⟨S_, .i32⟩
  | 52 => ⟨S16x384x384, .i32⟩
  | 53 => ⟨S16x384x384, .i32⟩
  | 54 => ⟨S16x384x384, .i32⟩
  | 55 => ⟨S_, .i32⟩
  | 56 => ⟨S16x384x384, .i32⟩
  | 57 => ⟨S16x384x384, .i1⟩
  | 58 => ⟨S_, .i32⟩
  | 59 => ⟨S16x384x384, .i32⟩
  | 60 => ⟨S16x384x384, .i32⟩
  | 61 => ⟨S16x384x384, .i32⟩
  | 62 => ⟨S16x384x384, .i32⟩
  | 63 => ⟨S16x384x384x1, .i32⟩
  | 64 => ⟨S16x384x384x1, .i32⟩
  | 65 => ⟨S16x384x384x1, .i32⟩
  | 66 => ⟨S16x384x384x3, .i32⟩
  | 67 => ⟨S16x384x384x16, .f32⟩
  | 68 => ⟨S16x384x384x16, .f32⟩
  | _ => ⟨S16x512x512x16, .f32⟩

abbrev hbmTy (i : Nat) : BufTy := match i / 128 with
  | 0 => hbmTy0_0 i
  | 1 => hbmTy0_1 i
  | _ => ⟨S16x512x512x16, .f32⟩

abbrev bufTy : (tb : Table) → Fin (tcTables nBuf tb) → BufTy
  | .hbm, ⟨i, _⟩ => hbmTy i
  | .local _ .vmem, ⟨0, _⟩ => ⟨S1x16x384x16, .f32⟩
  | .local _ .vmem, ⟨1, _⟩ => ⟨S1x16x384x16, .f32⟩
  | .local _ .vmem, ⟨2, _⟩ => ⟨S1x16x384x16, .f32⟩
  | .local _ .vmem, ⟨3, _⟩ => ⟨S1x16x384x16, .f32⟩
  | .local _ .vmem, ⟨4, _⟩ => ⟨S1x16x384x16, .f32⟩
  | .local _ .vmem, ⟨5, _⟩ => ⟨S1x16x384x16, .f32⟩
  | .local _ .vmem, ⟨6, _⟩ => ⟨S1x16x384x16, .f32⟩
  | .local _ .vmem, ⟨7, _⟩ => ⟨S1x16x384x16, .f32⟩
  | .local _ .vmem, ⟨8, _⟩ => ⟨S1x16x384, .f32⟩
  | .local _ .vmem, ⟨9, _⟩ => ⟨S1x16x384, .f32⟩
  | .local _ .vmem, ⟨10, _⟩ => ⟨S1x16x384, .f32⟩
  | .local _ .vmem, ⟨11, _⟩ => ⟨S1x16x384, .f32⟩
  | .local _ .vmem, ⟨12, _⟩ => ⟨S1x16x384, .f32⟩
  | .local _ .vmem, ⟨13, _⟩ => ⟨S1x16x384, .f32⟩
  | .local _ .vmem, ⟨14, _⟩ => ⟨S1x16x384, .f32⟩
  | .local _ .vmem, ⟨15, _⟩ => ⟨S1x16x384, .f32⟩
  | .local _ .vmem, ⟨16, _⟩ => ⟨S1x16x384x16, .f32⟩
  | .local _ .vmem, ⟨17, _⟩ => ⟨S1x16x384x16, .f32⟩
  | _, _ => ⟨S16x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_c_7 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v39 : Ref sig .tc := ⟨.hbm, 70, rfl⟩
abbrev main_v40 : Ref sig .tc := ⟨.hbm, 71, rfl⟩
abbrev main_c_12 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_16 : Ref sig .tc := ⟨.hbm, 89, rfl⟩
abbrev main_v49 : Ref sig .tc := ⟨.hbm, 90, rfl⟩
abbrev main_v50 : Ref sig .tc := ⟨.hbm, 91, rfl⟩
abbrev main_c_17 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_18 : Ref sig .tc := ⟨.hbm, 96, rfl⟩
abbrev main_v54 : Ref sig .tc := ⟨.hbm, 97, rfl⟩
abbrev main_v55 : Ref sig .tc := ⟨.hbm, 98, rfl⟩
abbrev main_c_19 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_20 : Ref sig .tc := ⟨.hbm, 111, rfl⟩
abbrev main_v67 : Ref sig .tc := ⟨.hbm, 112, rfl⟩
abbrev main_v68 : Ref sig .tc := ⟨.hbm, 113, rfl⟩
abbrev main_c_21 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_22 : Ref sig .tc := ⟨.hbm, 118, rfl⟩
abbrev main_v72 : Ref sig .tc := ⟨.hbm, 119, rfl⟩
abbrev main_v73 : Ref sig .tc := ⟨.hbm, 120, rfl⟩
abbrev main_c_23 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_24 : Ref sig .tc := ⟨.hbm, 125, rfl⟩
abbrev main_v77 : Ref sig .tc := ⟨.hbm, 126, rfl⟩
abbrev main_v78 : Ref sig .tc := ⟨.hbm, 127, rfl⟩
abbrev main_c_25 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_26 : Ref sig .tc := ⟨.hbm, 140, rfl⟩
abbrev main_v90 : Ref sig .tc := ⟨.hbm, 141, rfl⟩
abbrev main_v91 : Ref sig .tc := ⟨.hbm, 142, rfl⟩
abbrev main_c_27 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_28 : Ref sig .tc := ⟨.hbm, 147, rfl⟩
abbrev main_v95 : Ref sig .tc := ⟨.hbm, 148, rfl⟩
abbrev main_v96 : Ref sig .tc := ⟨.hbm, 149, rfl⟩
abbrev main_c_29 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_30 : Ref sig .tc := ⟨.hbm, 154, rfl⟩
abbrev main_v100 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_32 : Ref sig .tc := ⟨.hbm, 169, rfl⟩
abbrev main_v113 : Ref sig .tc := ⟨.hbm, 170, rfl⟩
abbrev main_v114 : Ref sig .tc := ⟨.hbm, 171, rfl⟩
abbrev main_c_33 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_c_35 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_36 : Ref sig .tc := ⟨.hbm, 183, rfl⟩
abbrev main_v123 : Ref sig .tc := ⟨.hbm, 184, rfl⟩
abbrev main_v124 : Ref sig .tc := ⟨.hbm, 185, rfl⟩
abbrev main_c_37 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 24], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x384x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x384x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x384x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S16x384x384x2_S16x384x384x1_0_0_0_0 : S16x384x384x2.Slices ![0, 0, 0, 0] S16x384x384x1
  shapeCasts_S16x384x384x1_S16x384x384 : S16x384x384x1.ShapeCasts S16x384x384
  bcast_S_S16x384x384 : S_.BroadcastsInDim S16x384x384 (![] : Fin 0 → Fin S16x384x384.rank)
  slices_S16x384x384x2_S16x384x384x1_0_0_0_1 : S16x384x384x2.Slices ![0, 0, 0, 1] S16x384x384x1
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x384x384_0_1_2 : S16x1x1.BroadcastsInDim S16x384x384 (![0, 1, 2] : Fin 3 → Fin S16x384x384.rank)
  bcast_S16x384x384_S16x384x384x1_0_1_2 : S16x384x384.BroadcastsInDim S16x384x384x1 (![0, 1, 2] : Fin 3 → Fin S16x384x384x1.rank)
  concatenates_S16x384x384x1_S16x384x384x1_S16x384x384x1_S16x384x384x3_d3 : Shape.Concatenates [S16x384x384x1, S16x384x384x1, S16x384x384x1] S16x384x384x3 3
  inb_S1x16x384_S1x16x384_0_0_0 : ∀ a, (![0, 0, 0] : Fin 3 → Nat) a + S1x16x384.size a ≤ S1x16x384.size a
  h_S1x16x384 : 0 < S1x16x384.numel
  shapeCasts_S1x16x384_S1x16x384 : S1x16x384.ShapeCasts S1x16x384
  shapeCasts_S1x16x384_S1x16x384x1 : S1x16x384.ShapeCasts S1x16x384x1
  inb_S1x16x384x16_S1x16x384x16_0_0_0_0 : ∀ a, (![0, 0, 0, 0] : Fin 4 → Nat) a + S1x16x384x16.size a ≤ S1x16x384x16.size a
  h_S1x16x384x16 : 0 < S1x16x384x16.numel
  shapeCasts_S1x16x384x16_S1x16x384x16 : S1x16x384x16.ShapeCasts S1x16x384x16
  broadcasts_S1x16x384x1_S1x16x384x16 : S1x16x384x1.Broadcasts S1x16x384x16
  gather_S16x512x512x16_S16x384x384x3_S16x384x384x16_3_012_n_n_012_3_11116_wf : GatherDims.WF S16x512x512x16 S16x384x384x3 S16x384x384x16 [3] [0, 1, 2] [] [0, 1, 2] [] 3 ![1, 1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x384x16.size a ≤ S16x384x384x16.size a
  hwx0_0 : ∀ i : grid0.Coords, EltTy.bits .f32 = 32 ∨ (Rect.block (s := S16x384x384x16) S1x16x384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x384x16.size a ≤ S16x384x384x16.size a
  hwx0_1 : ∀ i : grid0.Coords, EltTy.bits .f32 = 32 ∨ (Rect.block (s := S16x384x384x16) S1x16x384x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x384x16.size a ≤ S16x384x384x16.size a
  hwx0_2 : ∀ i : grid0.Coords, EltTy.bits .f32 = 32 ∨ (Rect.block (s := S16x384x384x16) S1x16x384x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x384x16.size a ≤ S16x384x384x16.size a
  hwx0_3 : ∀ i : grid0.Coords, EltTy.bits .f32 = 32 ∨ (Rect.block (s := S16x384x384x16) S1x16x384x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x384.size a ≤ S16x384x384.size a
  hwx0_4 : ∀ i : grid0.Coords, EltTy.bits .f32 = 32 ∨ (Rect.block (s := S16x384x384) S1x16x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x384.size a ≤ S16x384x384.size a
  hwx0_5 : ∀ i : grid0.Coords, EltTy.bits .f32 = 32 ∨ (Rect.block (s := S16x384x384) S1x16x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x384.size a ≤ S16x384x384.size a
  hwx0_6 : ∀ i : grid0.Coords, EltTy.bits .f32 = 32 ∨ (Rect.block (s := S16x384x384) S1x16x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x384.size a ≤ S16x384x384.size a
  hwx0_7 : ∀ i : grid0.Coords, EltTy.bits .f32 = 32 ∨ (Rect.block (s := S16x384x384) S1x16x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x384x16.size a ≤ S16x384x384x16.size a
  hwx0_8 : ∀ i : grid0.Coords, EltTy.bits .f32 = 32 ∨ (Rect.block (s := S16x384x384x16) S1x16x384x16.size (cc0_transform_8 i) (hinb0_8 i)).WholeWords (EltTy.packing .f32)

variable [Facts₀]

def gather_S16x512x512x16_S16x384x384x3_S16x384x384x16_3_012_n_n_012_3_11116 : GatherDims S16x512x512x16 S16x384x384x3 S16x384x384x16 where
  offsetDims := [3]
  collapsedSliceDims := [0, 1, 2]
  operandBatchingDims := []
  startIndicesBatchingDims := []
  startIndexMap := [0, 1, 2]
  indexVectorDim := 3
  sliceSizes := ![1, 1, 1, 16]
  wf := gather_S16x512x512x16_S16x384x384x3_S16x384x384x16_3_012_n_n_012_3_11116_wf

abbrev win0_0 : Pipeline.Window sig grid0 :=
  Pipeline.Window.ofSpec (Memref.whole main_v64) S1x16x384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S1x16x384x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v110) S1x16x384x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v133) S1x16x384x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x16x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x16x384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x16x384.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x16x384.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v134) S1x16x384x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x512x512x16 : Shape := ⟨4, ![16, 512, 512, 16]⟩
abbrev S16x384x384x2 : Shape := ⟨4, ![16, 384, 384, 2]⟩
abbrev S16x384x384x1 : Shape := ⟨4, ![16, 384, 384, 1]⟩
abbrev S16x384x384 : Shape := ⟨3, ![16, 384, 384]⟩
abbrev S_ : Shape := ⟨0, ![]⟩
abbrev S16 : Shape := ⟨1, ![16]⟩
abbrev S16x1x1 : Shape := ⟨3, ![16, 1, 1]⟩
abbrev S16x384x384x3 : Shape := ⟨4, ![16, 384, 384, 3]⟩
abbrev S16x384x384x16 : Shape := ⟨4, ![16, 384, 384, 16]⟩

abbrev nBuf : Space → Nat
  | .hbm => 211
  | .vmem => 0
  | .smem => 0
  | _ => 0

abbrev hbmTy0_0 (i : Nat) : BufTy := match i % 128 with
  | 0 => ⟨S16x512x512x16, .f32⟩
  | 1 => ⟨S16x384x384x2, .f32⟩
  | 2 => ⟨S16x384x384x1, .f32⟩
  | 3 => ⟨S16x384x384, .f32⟩
  | 4 => ⟨S_, .f32⟩
  | 5 => ⟨S16x384x384, .f32⟩
  | 6 => ⟨S16x384x384, .f32⟩
  | 7 => ⟨S_, .f32⟩
  | 8 => ⟨S16x384x384, .f32⟩
  | 9 => ⟨S16x384x384, .f32⟩
  | 10 => ⟨S_, .f32⟩
  | 11 => ⟨S16x384x384, .f32⟩
  | 12 => ⟨S16x384x384, .f32⟩
  | 13 => ⟨S16x384x384x1, .f32⟩
  | 14 => ⟨S16x384x384, .f32⟩
  | 15 => ⟨S_, .f32⟩
  | 16 => ⟨S16x384x384, .f32⟩
  | 17 => ⟨S16x384x384, .f32⟩
  | 18 => ⟨S_, .f32⟩
  | 19 => ⟨S16x384x384, .f32⟩
  | 20 => ⟨S16x384x384, .f32⟩
  | 21 => ⟨S_, .f32⟩
  | 22 => ⟨S16x384x384, .f32⟩
  | 23 => ⟨S16x384x384, .f32⟩
  | 24 => ⟨S16x384x384, .f32⟩
  | 25 => ⟨S16x384x384, .f32⟩
  | 26 => ⟨S_, .f32⟩
  | 27 => ⟨S16x384x384, .f32⟩
  | 28 => ⟨S16x384x384, .f32⟩
  | 29 => ⟨S_, .f32⟩
  | 30 => ⟨S16x384x384, .f32⟩
  | 31 => ⟨S16x384x384, .f32⟩
  | 32 => ⟨S16x384x384, .f32⟩
  | 33 => ⟨S16x384x384, .f32⟩
  | 34 => ⟨S16x384x384, .f32⟩
  | 35 => ⟨S16x384x384, .f32⟩
  | 36 => ⟨S16x384x384, .f32⟩
  | 37 => ⟨S16x384x384, .f32⟩
  | 38 => ⟨S16x384x384, .f32⟩
  | 39 => ⟨S16x384x384, .f32⟩
  | 40 => ⟨S16x384x384, .f32⟩
  | 41 => ⟨S16x384x384, .f32⟩
  | 42 => ⟨S16x384x384, .f32⟩
  | 43 => ⟨S16x384x384, .f32⟩
  | 44 => ⟨S16x384x384, .i32⟩
  | 45 => ⟨S_, .i32⟩
  | 46 => ⟨S_, .i32⟩
  | 47 => ⟨S_, .i32⟩
  | 48 => ⟨S16x384x384, .i32⟩
  | 49 => ⟨S16x384x384, .i32⟩
  | 50 => ⟨S_, .i32⟩
  | 51 => ⟨S16x384x384, .i32⟩
  | 52 => ⟨S16x384x384, .i32⟩
  | 53 => ⟨S16x384x384, .i32⟩
  | 54 => ⟨S_, .i32⟩
  | 55 => ⟨S_, .i32⟩
  | 56 => ⟨S_, .i32⟩
  | 57 => ⟨S16x384x384, .i32⟩
  | 58 => ⟨S16x384x384, .i32⟩
  | 59 => ⟨S_, .i32⟩
  | 60 => ⟨S16x384x384, .i32⟩
  | 61 => ⟨S16x384x384, .i32⟩
  | 62 => ⟨S16x384x384, .i32⟩
  | 63 => ⟨S_, .i32⟩
  | 64 => ⟨S_, .i32⟩
  | 65 => ⟨S_, .i32⟩
  | 66 => ⟨S16x384x384, .i32⟩
  | 67 => ⟨S16x384x384, .i32⟩
  | 68 => ⟨S_, .i32⟩
  | 69 => ⟨S16x384x384, .i32⟩
  | 70 => ⟨S16x384x384, .i32⟩
  | 71 => ⟨S16x384x384, .i32⟩
  | 72 => ⟨S_, .i32⟩
  | 73 => ⟨S_, .i32⟩
  | 74 => ⟨S_, .i32⟩
  | 75 => ⟨S16x384x384, .i32⟩
  | 76 => ⟨S16x384x384, .i32⟩
  | 77 => ⟨S_, .i32⟩
  | 78 => ⟨S16x384x384, .i32⟩
  | 79 => ⟨S16x384x384, .i32⟩
  | 80 => ⟨S16, .i32⟩
  | 81 => ⟨S16x1x1, .i32⟩
  | 82 => ⟨S_, .i32⟩
  | 83 => ⟨S16x1x1, .i32⟩
  | 84 => ⟨S16x1x1, .i1⟩
  | 85 => ⟨S_, .i32⟩
  | 86 => ⟨S16x1x1, .i32⟩
  | 87 => ⟨S16x1x1, .i32⟩
  | 88 => ⟨S16x1x1, .i32⟩
  | 89 => ⟨S_, .i32⟩
  | 90 => ⟨S16x384x384, .i32⟩
  | 91 => ⟨S16x384x384, .i1⟩
  | 92 => ⟨S_, .i32⟩
  | 93 => ⟨S16x384x384, .i32⟩
  | 94 => ⟨S16x384x384, .i32⟩
  | 95 => ⟨S16x384x384, .i32⟩
  | 96 => ⟨S_, .i32⟩
  | 97 => ⟨S16x384x384, .i32⟩
  | 98 => ⟨S16x384x384, .i1⟩
  | 99 => ⟨S_, .i32⟩
  | 100 => ⟨S16x384x384, .i32⟩
  | 101 => ⟨S16x384x384, .i32⟩
  | 102 => ⟨S16x384x384, .i32⟩
  | 103 => ⟨S16x384x384, .i32⟩
  | 104 => ⟨S16x384x384x1, .i32⟩
  | 105 => ⟨S16x384x384x1, .i32⟩
  | 106 => ⟨S16x384x384x1, .i32⟩
  | 107 => ⟨S16x384x384x3, .i32⟩
  | 108 => ⟨S16x384x384x16, .f32⟩
  | 109 => ⟨S16, .i32⟩
  | 110 => ⟨S16x1x1, .i32⟩
  | 111 => ⟨S_, .i32⟩
  | 112 => ⟨S16x1x1, .i32⟩
  | 113 => ⟨S16x1x1, .i1⟩
  | 114 => ⟨S_, .i32⟩
  | 115 => ⟨S16x1x1, .i32⟩
  | 116 => ⟨S16x1x1, .i32⟩
  | 117 => ⟨S16x1x1, .i32⟩
  | 118 => ⟨S_, .i32⟩
  | 119 => ⟨S16x384x384, .i32⟩
  | 120 => ⟨S16x384x384, .i1⟩
  | 121 => ⟨S_, .i32⟩
  | 122 => ⟨S16x384x384, .i32⟩
  | 123 => ⟨S16x384x384, .i32⟩
  | 124 => ⟨S16x384x384, .i32⟩
  | 125 => ⟨S_, .i32⟩
  | 126 => ⟨S16x384x384, .i32⟩
  | 127 => ⟨S16x384x384, .i1⟩
  | _ => ⟨S16x512x512x16, .f32⟩

abbrev hbmTy0_1 (i : Nat) : BufTy := match i % 128 with
  | 0 => ⟨S_, .i32⟩
  | 1 => ⟨S16x384x384, .i32⟩
  | 2 => ⟨S16x384x384, .i32⟩
  | 3 => ⟨S16x384x384, .i32⟩
  | 4 => ⟨S16x384x384, .i32⟩
  | 5 => ⟨S16x384x384x1, .i32⟩
  | 6 => ⟨S16x384x384x1, .i32⟩
  | 7 => ⟨S16x384x384x1, .i32⟩
  | 8 => ⟨S16x384x384x3, .i32⟩
  | 9 => ⟨S16x384x384x16, .f32⟩
  | 10 => ⟨S16, .i32⟩
  | 11 => ⟨S16x1x1, .i32⟩
  | 12 => ⟨S_, .i32⟩
  | 13 => ⟨S16x1x1, .i32⟩
  | 14 => ⟨S16x1x1, .i1⟩
  | 15 => ⟨S_, .i32⟩
  | 16 => ⟨S16x1x1, .i32⟩
  | 17 => ⟨S16x1x1, .i32⟩
  | 18 => ⟨S16x1x1, .i32⟩
  | 19 => ⟨S_, .i32⟩
  | 20 => ⟨S16x384x384, .i32⟩
  | 21 => ⟨S16x384x384, .i1⟩
  | 22 => ⟨S_, .i32⟩
  | 23 => ⟨S16x384x384, .i32⟩
  | 24 => ⟨S16x384x384, .i32⟩
  | 25 => ⟨S16x384x384, .i32⟩
  | 26 => ⟨S_, .i32⟩
  | 27 => ⟨S16x384x384, .i32⟩
  | 28 => ⟨S16x384x384, .i1⟩
  | 29 => ⟨S_, .i32⟩
  | 30 => ⟨S16x384x384, .i32⟩
  | 31 => ⟨S16x384x384, .i32⟩
  | 32 => ⟨S16x384x384, .i32⟩
  | 33 => ⟨S16x384x384, .i32⟩
  | 34 => ⟨S16x384x384x1, .i32⟩
  | 35 => ⟨S16x384x384x1, .i32⟩
  | 36 => ⟨S16x384x384x1, .i32⟩
  | 37 => ⟨S16x384x384x3, .i32⟩
  | 38 => ⟨S16x384x384x16, .f32⟩
  | 39 => ⟨S16, .i32⟩
  | 40 => ⟨S16x1x1, .i32⟩
  | 41 => ⟨S_, .i32⟩
  | 42 => ⟨S16x1x1, .i32⟩
  | 43 => ⟨S16x1x1, .i1⟩
  | 44 => ⟨S_, .i32⟩
  | 45 => ⟨S16x1x1, .i32⟩
  | 46 => ⟨S16x1x1, .i32⟩
  | 47 => ⟨S16x1x1, .i32⟩
  | 48 => ⟨S_, .i32⟩
  | 49 => ⟨S16x384x384, .i32⟩
  | 50 => ⟨S16x384x384, .i1⟩
  | 51 => ⟨S_, .i32⟩
  | 52 => ⟨S16x384x384, .i32⟩
  | 53 => ⟨S16x384x384, .i32⟩
  | 54 => ⟨S16x384x384, .i32⟩
  | 55 => ⟨S_, .i32⟩
  | 56 => ⟨S16x384x384, .i32⟩
  | 57 => ⟨S16x384x384, .i1⟩
  | 58 => ⟨S_, .i32⟩
  | 59 => ⟨S16x384x384, .i32⟩
  | 60 => ⟨S16x384x384, .i32⟩
  | 61 => ⟨S16x384x384, .i32⟩
  | 62 => ⟨S16x384x384, .i32⟩
  | 63 => ⟨S16x384x384x1, .i32⟩
  | 64 => ⟨S16x384x384x1, .i32⟩
  | 65 => ⟨S16x384x384x1, .i32⟩
  | 66 => ⟨S16x384x384x3, .i32⟩
  | 67 => ⟨S16x384x384x16, .f32⟩
  | 68 => ⟨S16x384x384x1, .f32⟩
  | 69 => ⟨S16x384x384x16, .f32⟩
  | 70 => ⟨S16x384x384x16, .f32⟩
  | 71 => ⟨S16x384x384x1, .f32⟩
  | 72 => ⟨S16x384x384x16, .f32⟩
  | 73 => ⟨S16x384x384x16, .f32⟩
  | 74 => ⟨S16x384x384x16, .f32⟩
  | 75 => ⟨S16x384x384x1, .f32⟩
  | 76 => ⟨S16x384x384x16, .f32⟩
  | 77 => ⟨S16x384x384x16, .f32⟩
  | 78 => ⟨S16x384x384x16, .f32⟩
  | 79 => ⟨S16x384x384x1, .f32⟩
  | 80 => ⟨S16x384x384x16, .f32⟩
  | 81 => ⟨S16x384x384x16, .f32⟩
  | 82 => ⟨S16x384x384x16, .f32⟩
  | _ => ⟨S16x512x512x16, .f32⟩

abbrev hbmTy (i : Nat) : BufTy := match i / 128 with
  | 0 => hbmTy0_0 i
  | 1 => hbmTy0_1 i
  | _ => ⟨S16x512x512x16, .f32⟩

abbrev bufTy : (tb : Table) → Fin (tcTables nBuf tb) → BufTy
  | .hbm, ⟨i, _⟩ => hbmTy i
  | _, _ => ⟨S16x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_c_7 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v39 : Ref sig .tc := ⟨.hbm, 70, rfl⟩
abbrev main_v40 : Ref sig .tc := ⟨.hbm, 71, rfl⟩
abbrev main_c_12 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_16 : Ref sig .tc := ⟨.hbm, 89, rfl⟩
abbrev main_v49 : Ref sig .tc := ⟨.hbm, 90, rfl⟩
abbrev main_v50 : Ref sig .tc := ⟨.hbm, 91, rfl⟩
abbrev main_c_17 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_18 : Ref sig .tc := ⟨.hbm, 96, rfl⟩
abbrev main_v54 : Ref sig .tc := ⟨.hbm, 97, rfl⟩
abbrev main_v55 : Ref sig .tc := ⟨.hbm, 98, rfl⟩
abbrev main_c_19 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_20 : Ref sig .tc := ⟨.hbm, 111, rfl⟩
abbrev main_v67 : Ref sig .tc := ⟨.hbm, 112, rfl⟩
abbrev main_v68 : Ref sig .tc := ⟨.hbm, 113, rfl⟩
abbrev main_c_21 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_22 : Ref sig .tc := ⟨.hbm, 118, rfl⟩
abbrev main_v72 : Ref sig .tc := ⟨.hbm, 119, rfl⟩
abbrev main_v73 : Ref sig .tc := ⟨.hbm, 120, rfl⟩
abbrev main_c_23 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_24 : Ref sig .tc := ⟨.hbm, 125, rfl⟩
abbrev main_v77 : Ref sig .tc := ⟨.hbm, 126, rfl⟩
abbrev main_v78 : Ref sig .tc := ⟨.hbm, 127, rfl⟩
abbrev main_c_25 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_26 : Ref sig .tc := ⟨.hbm, 140, rfl⟩
abbrev main_v90 : Ref sig .tc := ⟨.hbm, 141, rfl⟩
abbrev main_v91 : Ref sig .tc := ⟨.hbm, 142, rfl⟩
abbrev main_c_27 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_28 : Ref sig .tc := ⟨.hbm, 147, rfl⟩
abbrev main_v95 : Ref sig .tc := ⟨.hbm, 148, rfl⟩
abbrev main_v96 : Ref sig .tc := ⟨.hbm, 149, rfl⟩
abbrev main_c_29 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_30 : Ref sig .tc := ⟨.hbm, 154, rfl⟩
abbrev main_v100 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_32 : Ref sig .tc := ⟨.hbm, 169, rfl⟩
abbrev main_v113 : Ref sig .tc := ⟨.hbm, 170, rfl⟩
abbrev main_v114 : Ref sig .tc := ⟨.hbm, 171, rfl⟩
abbrev main_c_33 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_c_35 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_36 : Ref sig .tc := ⟨.hbm, 183, rfl⟩
abbrev main_v123 : Ref sig .tc := ⟨.hbm, 184, rfl⟩
abbrev main_v124 : Ref sig .tc := ⟨.hbm, 185, rfl⟩
abbrev main_c_37 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩

abbrev nD : Nat := 1
abbrev τ : Topo := Topo.v7x

variable {F : FTy → Type} [FloatOps F]

class Facts₀ : Prop where
  slices_S16x384x384x2_S16x384x384x1_0_0_0_0 : S16x384x384x2.Slices ![0, 0, 0, 0] S16x384x384x1
  shapeCasts_S16x384x384x1_S16x384x384 : S16x384x384x1.ShapeCasts S16x384x384
  bcast_S_S16x384x384 : S_.BroadcastsInDim S16x384x384 (![] : Fin 0 → Fin S16x384x384.rank)
  slices_S16x384x384x2_S16x384x384x1_0_0_0_1 : S16x384x384x2.Slices ![0, 0, 0, 1] S16x384x384x1
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x384x384_0_1_2 : S16x1x1.BroadcastsInDim S16x384x384 (![0, 1, 2] : Fin 3 → Fin S16x384x384.rank)
  bcast_S16x384x384_S16x384x384x1_0_1_2 : S16x384x384.BroadcastsInDim S16x384x384x1 (![0, 1, 2] : Fin 3 → Fin S16x384x384x1.rank)
  concatenates_S16x384x384x1_S16x384x384x1_S16x384x384x1_S16x384x384x3_d3 : Shape.Concatenates [S16x384x384x1, S16x384x384x1, S16x384x384x1] S16x384x384x3 3
  bcast_S16x384x384x1_S16x384x384x16_0_1_2_3 : S16x384x384x1.BroadcastsInDim S16x384x384x16 (![0, 1, 2, 3] : Fin 4 → Fin S16x384x384x16.rank)
  gather_S16x512x512x16_S16x384x384x3_S16x384x384x16_3_012_n_n_012_3_11116_wf : GatherDims.WF S16x512x512x16 S16x384x384x3 S16x384x384x16 [3] [0, 1, 2] [] [0, 1, 2] [] 3 ![1, 1, 1, 16]

variable [Facts₀]

def gather_S16x512x512x16_S16x384x384x3_S16x384x384x16_3_012_n_n_012_3_11116 : GatherDims S16x512x512x16 S16x384x384x3 S16x384x384x16 where
  offsetDims := [3]
  collapsedSliceDims := [0, 1, 2]
  operandBatchingDims := []
  startIndicesBatchingDims := []
  startIndexMap := [0, 1, 2]
  indexVectorDim := 3
  sliceSizes := ![1, 1, 1, 16]
  wf := gather_S16x512x512x16_S16x384x384x3_S16x384x384x16_3_012_n_n_012_3_11116_wf

class Facts : Prop extends Facts₀ where

variable [Facts]
-- ==== Proof.KernelRun.lean ====
/-
  The run of the blend program, at any reading of its floats.

  @main first computes, on the host, four weight maps w_nw, w_ne, w_sw, w_se : [16,384,384] (products of the
  fractional parts of the sampling coordinates) and four gathered corner images i_nw, i_ne, i_sw, i_se :
  [16,384,384,16] (the image rows at the clamped floor / floor + 1 coordinates); then one region over the grid
  16 × 24 blends them: at grid point (b, h) the body reads the block [b, 16h .. 16h+15, :, :] of each corner image and
  the block [b, 16h .. 16h+15, :] of each weight map, and writes, into the same block of the result,
      ((w_nw · i_nw + w_ne · i_ne) + w_sw · i_sw) + w_se · i_se,
  each weight repeated along the 16 channels.

  This module runs the program to the end: the host lines leave the two argument arrays alone; every input block the
  body finds is the block of the array the host lines left; the body's one store covers the output block, so what the
  block holds afterwards is that store's value (`blended`); and the launch theorem for a one-region program gives
  termination, no fault, every input and bypassing buffer unchanged, and the result array assembled from the blocks.
-/
import proofs.«110488_j13065290514713_2_alg».proof.Proof.Gen.Kernel.Launch
import proofs.«110488_j13065290514713_2_alg».proof.Proof.Gen.Kernel.Skeleton
import proofs.«110488_j13065290514713_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Blend

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- What core `c`'s buffers hold when the region is entered: the launch contents rewritten by the nine stretches of
    host operations, in order. -/
abbrev entry (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is those nine stretches and then the region. -/
theorem reaches (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes the image array: every line's result buffer is another reference. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Nor the sampling array. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The blocks -/

/-- Window `w`'s block at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window is fetched at every point and the body only reads it, so whatever proof data keep its block in
    place find that block in the current staging buffer. -/
theorem found0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem found1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem found2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
theorem found3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
theorem found4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
theorem found5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)
theorem found6_of {c : Dev nD} (dat : Dat τ (Elt F) Unit ℕ (UR sig nD τ) ℕ cfg0 c) (hA : dat.A 6 = entry m c (Pipeline.arrRef spec0 6))
    (hafter : ∀ t, dat.after 6 t = tile m c 6 t) (t : Fin cfg0.N) (d) : dat.before 6 t d = tile m c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)
theorem found7_of {c : Dev nD} (dat : Dat τ (Elt F) Unit ℕ (UR sig nD τ) ℕ cfg0 c) (hA : dat.A 7 = entry m c (Pipeline.arrRef spec0 7))
    (hafter : ∀ t, dat.after 7 t = tile m c 7 t) (t : Fin cfg0.N) (d) : dat.before 7 t d = tile m c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)

/-! ## From the launch theorem's post to the frame -/

/-- Neither argument is a window's array, so both bypass the region: they end as the host lines left them, which is as
    launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c)⟩) h

/-! ## The body -/

/-- The whole image block and the whole weight block: the one rectangle each load and the store go through. -/
abbrev boxX : Rect S1x16x384x16 := Rect.unit (s := S1x16x384x16) ![0, 0, 0, 0] S1x16x384x16.size inb_S1x16x384x16_S1x16x384x16_0_0_0_0
abbrev boxW : Rect S1x16x384 := Rect.unit (s := S1x16x384) ![0, 0, 0] S1x16x384.size inb_S1x16x384_S1x16x384_0_0_0

/-- The output block after the body, from the eight input blocks: the blend, stored over the whole block. -/
def blended (x0 x1 x2 x3 : Vec F S1x16x384x16 .f32) (w4 w5 w6 w7 : Vec F S1x16x384 .f32) : Vec F S1x16x384x16 .f32 :=
  View.canon [⟨boxX, k0_pay1 (k0_pay2 (View.ld w4 boxW) (View.ld w5 boxW) (View.ld w6 boxW) (View.ld x0 boxX) (View.ld x1 boxX) (View.ld x2 boxX))
    (k0_pay3 (View.ld w7 boxW) (View.ld x3 boxX))⟩]

/-- The store's rectangle is the whole block. -/
theorem covered (p0 : Vec F S1x16x384x16 .f32) (y : S1x16x384x16.Idx) :
    ∃ pc ∈ ([⟨boxX, p0⟩] : List (View.Piece (Elt F) S1x16x384x16 .f32)), y ∈ pc.1.set :=
  View.cover_of_tiled [⟨boxX, p0⟩] S1x16x384x16.size (by rfl) y

set_option maxHeartbeats 1000000 in
/-- The body on whole staging buffers, the inputs' at given contents and the output's at anything: it reads the eight
    inputs, leaves them as they were, and leaves the output's buffer at `blended` of them. -/
theorem sound_kernel (c : Dev nD) (E : Set ℕ) (i : grid0.Coords) (a0 : Memref sig .tc .vmem S1x16x384x16 .f32) (h0 : a0.IsWhole) (a1 : Memref sig .tc .vmem S1x16x384x16 .f32) (h1 : a1.IsWhole) (a2 : Memref sig .tc .vmem S1x16x384x16 .f32) (h2 : a2.IsWhole) (a3 : Memref sig .tc .vmem S1x16x384x16 .f32) (h3 : a3.IsWhole) (a4 : Memref sig .tc .vmem S1x16x384 .f32) (h4 : a4.IsWhole) (a5 : Memref sig .tc .vmem S1x16x384 .f32) (h5 : a5.IsWhole) (a6 : Memref sig .tc .vmem S1x16x384 .f32) (h6 : a6.IsWhole) (a7 : Memref sig .tc .vmem S1x16x384 .f32) (h7 : a7.IsWhole) (a8 : Memref sig .tc .vmem S1x16x384x16 .f32) (h8 : a8.IsWhole)
    (x0 x1 x2 x3 : Vec F S1x16x384x16 .f32) (w4 w5 w6 w7 : Vec F S1x16x384 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare w4 ∗ owns (c : Thread nD τ) a5 fullShare w5 ∗ owns (c : Thread nD τ) a6 fullShare w6 ∗ owns (c : Thread nD τ) a7 fullShare w7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare w4 ∗ owns (c : Thread nD τ) a5 fullShare w5 ∗ owns (c : Thread nD τ) a6 fullShare w6 ∗ owns (c : Thread nD τ) a7 fullShare w7 ∗ owns (c : Thread nD τ) a8 fullShare (blended x0 x1 x2 x3 w4 w5 w6 w7)) -∗ K ⟨⟩))
      ⊢ wp frame (wpE (defs₀ (F := F)) Variants.none c none) E (cc0__blend_kernel i a0 h0 a1 h1 a2 h2 a3 h3 a4 h4 a5 h5 a6 h6 a7 h7 a8 h8) K := by
  simp only [cc0__blend_kernel_eq_skeleton]; unfold cc0__blend_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (covered _)

/-! ## The proof data -/

/-- On core `c`: the arrays as the region finds them; after the body at point `t` each input's buffer still at its
    block and the output's at the blend of the eight input blocks; nothing carried from point to point beyond that. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => tile m c 6 t
    | ⟨7, _⟩ => tile m c 7 t
    | ⟨8, _⟩ => blended (tile m c 0 t) (tile m c 1 t) (tile m c 2 t) (tile m c 3 t) (tile m c 4 t) (tile m c 5 t) (tile m c 6 t) (tile m c 7 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem left0 (c : Dev nD) (t : Fin cfg0.N) : (dats m 0 c).after 0 t = tile m c 0 t := by dsimp only [dats]
theorem left1 (c : Dev nD) (t : Fin cfg0.N) : (dats m 0 c).after 1 t = tile m c 1 t := by dsimp only [dats]
theorem left2 (c : Dev nD) (t : Fin cfg0.N) : (dats m 0 c).after 2 t = tile m c 2 t := by dsimp only [dats]
theorem left3 (c : Dev nD) (t : Fin cfg0.N) : (dats m 0 c).after 3 t = tile m c 3 t := by dsimp only [dats]
theorem left4 (c : Dev nD) (t : Fin cfg0.N) : (dats m 0 c).after 4 t = tile m c 4 t := by dsimp only [dats]
theorem left5 (c : Dev nD) (t : Fin cfg0.N) : (dats m 0 c).after 5 t = tile m c 5 t := by dsimp only [dats]
theorem left6 (c : Dev nD) (t : Fin cfg0.N) : (dats m 0 c).after 6 t = tile m c 6 t := by dsimp only [dats]
theorem left7 (c : Dev nD) (t : Fin cfg0.N) : (dats m 0 c).after 7 t = tile m c 7 t := by dsimp only [dats]
theorem left8 (c : Dev nD) (t : Fin cfg0.N) : (dats m 0 c).after 8 t
    = blended (tile m c 0 t) (tile m c 1 t) (tile m c 2 t) (tile m c 3 t) (tile m c 4 t) (tile m c 5 t) (tile m c 6 t) (tile m c 7 t) := by dsimp only [dats]

theorem found0 (c : Dev nD) (t : Fin cfg0.N) (d) : (dats m 0 c).before 0 t d = tile m c 0 t :=
  found0_of m (dats m 0 c) (A_eq m c 0) (left0 m c) t d
theorem found1 (c : Dev nD) (t : Fin cfg0.N) (d) : (dats m 0 c).before 1 t d = tile m c 1 t :=
  found1_of m (dats m 0 c) (A_eq m c 1) (left1 m c) t d
theorem found2 (c : Dev nD) (t : Fin cfg0.N) (d) : (dats m 0 c).before 2 t d = tile m c 2 t :=
  found2_of m (dats m 0 c) (A_eq m c 2) (left2 m c) t d
theorem found3 (c : Dev nD) (t : Fin cfg0.N) (d) : (dats m 0 c).before 3 t d = tile m c 3 t :=
  found3_of m (dats m 0 c) (A_eq m c 3) (left3 m c) t d
theorem found4 (c : Dev nD) (t : Fin cfg0.N) (d) : (dats m 0 c).before 4 t d = tile m c 4 t :=
  found4_of m (dats m 0 c) (A_eq m c 4) (left4 m c) t d
theorem found5 (c : Dev nD) (t : Fin cfg0.N) (d) : (dats m 0 c).before 5 t d = tile m c 5 t :=
  found5_of m (dats m 0 c) (A_eq m c 5) (left5 m c) t d
theorem found6 (c : Dev nD) (t : Fin cfg0.N) (d) : (dats m 0 c).before 6 t d = tile m c 6 t :=
  found6_of m (dats m 0 c) (A_eq m c 6) (left6 m c) t d
theorem found7 (c : Dev nD) (t : Fin cfg0.N) (d) : (dats m 0 c).before 7 t d = tile m c 7 t :=
  found7_of m (dats m 0 c) (A_eq m c 7) (left7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (dats m 0 c).Φ t.succ = (dats m 0 c).Φ t.castSucc from rfl,
    show (dats m 0 c).owesAt () t.succ = (dats m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (tile m c 0 t) (tile m c 1 t) (tile m c 2 t) (tile m c 3 t) (tile m c 4 t) (tile m c 5 t) (tile m c 6 t) (tile m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; afterwards every window's array holds what the
    blocks written back make of it, and every other unscoped buffer what the host lines left. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := reaches m Variants.none) (hA := A_eq m) (hΦ := fun _ _ => rfl)

/-- The program runs and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Blend

end
-- ==== Proof.KernelIdealRun.lean ====
/-
  The run of the blend program, at any reading of its floats.

  @main first computes, on the host, four weight maps w_nw, w_ne, w_sw, w_se : [16,384,384] (products of the
  fractional parts of the sampling coordinates) and four gathered corner images i_nw, i_ne, i_sw, i_se :
  [16,384,384,16] (the image rows at the clamped floor / floor + 1 coordinates); then one region over the grid
  16 × 24 blends them: at grid point (b, h) the body reads the block [b, 16h .. 16h+15, :, :] of each corner image and
  the block [b, 16h .. 16h+15, :] of each weight map, and writes, into the same block of the result,
      ((w_nw · i_nw + w_ne · i_ne) + w_sw · i_sw) + w_se · i_se,
  each weight repeated along the 16 channels.

  This module runs the program to the end: the host lines leave the two argument arrays alone; every input block the
  body finds is the block of the array the host lines left; the body's one store covers the output block, so what the
  block holds afterwards is that store's value (`blended`); and the launch theorem for a one-region program gives
  termination, no fault, every input and bypassing buffer unchanged, and the result array assembled from the blocks.
-/
import proofs.«110488_j13065290514713_2_alg».proof.Proof.Gen.KernelIdeal.Launch
import proofs.«110488_j13065290514713_2_alg».proof.Proof.Gen.KernelIdeal.Skeleton
import proofs.«110488_j13065290514713_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Blend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- What core `c`'s buffers hold when the region is entered: the launch contents rewritten by the nine stretches of
    host operations, in order. -/
abbrev entry (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is those nine stretches and then the region. -/
theorem reaches (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host line writes the image array: every line's result buffer is another reference. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Nor the sampling array. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The blocks -/

/-- Window `w`'s block at grid point `t`, read off its array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each input window is fetched at every point and the body only reads it, so whatever proof data keep its block in
    place find that block in the current staging buffer. -/
theorem found0_of {c : Dev nD} (dat : Dat τ (Elt F) Unit ℕ (UR sig nD τ) ℕ cfg0 c) (hA : dat.A 0 = entry m c (Pipeline.arrRef spec0 0))
    (hafter : ∀ t, dat.after 0 t = tile m c 0 t) (t : Fin cfg0.N) (d) : dat.before 0 t d = tile m c 0 t :=
  (dat.before_in_eq_fetched 0 rfl (fun _ => rfl) (fun _ _ _ => rfl) (fun t => by rw [hafter]; unfold Dat.blockOf tile; rw [hA]; try rfl) t d).trans
    (by unfold Dat.fetched Dat.blockOf tile; rw [hA]; try rfl)
theorem found1_of {c : Dev nD} (dat : Dat τ (Elt F) Unit ℕ (UR sig nD τ) ℕ cfg0 c) (hA : dat.A 1 = entry m c (Pipeline.arrRef spec0 1))
    (hafter : ∀ t, dat.after 1 t = tile m c 1 t) (t : Fin cfg0.N) (d) : dat.before 1 t d = tile m c 1 t :=
  (dat.before_in_eq_fetched 1 rfl (fun _ => rfl) (fun _ _ _ => rfl) (fun t => by rw [hafter]; unfold Dat.blockOf tile; rw [hA]; try rfl) t d).trans
    (by unfold Dat.fetched Dat.blockOf tile; rw [hA]; try rfl)
theorem found2_of {c : Dev nD} (dat : Dat τ (Elt F) Unit ℕ (UR sig nD τ) ℕ cfg0 c) (hA : dat.A 2 = entry m c (Pipeline.arrRef spec0 2))
    (hafter : ∀ t, dat.after 2 t = tile m c 2 t) (t : Fin cfg0.N) (d) : dat.before 2 t d = tile m c 2 t :=
  (dat.before_in_eq_fetched 2 rfl (fun _ => rfl) (fun _ _ _ => rfl) (fun t => by rw [hafter]; unfold Dat.blockOf tile; rw [hA]; try rfl) t d).trans
    (by unfold Dat.fetched Dat.blockOf tile; rw [hA]; try rfl)
theorem found3_of {c : Dev nD} (dat : Dat τ (Elt F) Unit ℕ (UR sig nD τ) ℕ cfg0 c) (hA : dat.A 3 = entry m c (Pipeline.arrRef spec0 3))
    (hafter : ∀ t, dat.after 3 t = tile m c 3 t) (t : Fin cfg0.N) (d) : dat.before 3 t d = tile m c 3 t :=
  (dat.before_in_eq_fetched 3 rfl (fun _ => rfl) (fun _ _ _ => rfl) (fun t => by rw [hafter]; unfold Dat.blockOf tile; rw [hA]; try rfl) t d).trans
    (by unfold Dat.fetched Dat.blockOf tile; rw [hA]; try rfl)
theorem found4_of {c : Dev nD} (dat : Dat τ (Elt F) Unit ℕ (UR sig nD τ) ℕ cfg0 c) (hA : dat.A 4 = entry m c (Pipeline.arrRef spec0 4))
    (hafter : ∀ t, dat.after 4 t = tile m c 4 t) (t : Fin cfg0.N) (d) : dat.before 4 t d = tile m c 4 t :=
  (dat.before_in_eq_fetched 4 rfl (fun _ => rfl) (fun _ _ _ => rfl) (fun t => by rw [hafter]; unfold Dat.blockOf tile; rw [hA]; try rfl) t d).trans
    (by unfold Dat.fetched Dat.blockOf tile; rw [hA]; try rfl)
theorem found5_of {c : Dev nD} (dat : Dat τ (Elt F) Unit ℕ (UR sig nD τ) ℕ cfg0 c) (hA : dat.A 5 = entry m c (Pipeline.arrRef spec0 5))
    (hafter : ∀ t, dat.after 5 t = tile m c 5 t) (t : Fin cfg0.N) (d) : dat.before 5 t d = tile m c 5 t :=
  (dat.before_in_eq_fetched 5 rfl (fun _ => rfl) (fun _ _ _ => rfl) (fun t => by rw [hafter]; unfold Dat.blockOf tile; rw [hA]; try rfl) t d).trans
    (by unfold Dat.fetched Dat.blockOf tile; rw [hA]; try rfl)
theorem found6_of {c : Dev nD} (dat : Dat τ (Elt F) Unit ℕ (UR sig nD τ) ℕ cfg0 c) (hA : dat.A 6 = entry m c (Pipeline.arrRef spec0 6))
    (hafter : ∀ t, dat.after 6 t = tile m c 6 t) (t : Fin cfg0.N) (d) : dat.before 6 t d = tile m c 6 t :=
  (dat.before_in_eq_fetched 6 rfl (fun _ => rfl) (fun _ _ _ => rfl) (fun t => by rw [hafter]; unfold Dat.blockOf tile; rw [hA]; try rfl) t d).trans
    (by unfold Dat.fetched Dat.blockOf tile; rw [hA]; try rfl)
theorem found7_of {c : Dev nD} (dat : Dat τ (Elt F) Unit ℕ (UR sig nD τ) ℕ cfg0 c) (hA : dat.A 7 = entry m c (Pipeline.arrRef spec0 7))
    (hafter : ∀ t, dat.after 7 t = tile m c 7 t) (t : Fin cfg0.N) (d) : dat.before 7 t d = tile m c 7 t :=
  (dat.before_in_eq_fetched 7 rfl (fun _ => rfl) (fun _ _ _ => rfl) (fun t => by rw [hafter]; unfold Dat.blockOf tile; rw [hA]; try rfl) t d).trans
    (by unfold Dat.fetched Dat.blockOf tile; rw [hA]; try rfl)

/-! ## From the launch theorem's post to the frame -/

/-- Neither argument is a window's array, so both bypass the region: they end as the host lines left them, which is as
    launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c)⟩) h

/-! ## The body -/

/-- The whole image block and the whole weight block: the one rectangle each load and the store go through. -/
abbrev boxX : Rect S1x16x384x16 := Rect.unit (s := S1x16x384x16) ![0, 0, 0, 0] S1x16x384x16.size inb_S1x16x384x16_S1x16x384x16_0_0_0_0
abbrev boxW : Rect S1x16x384 := Rect.unit (s := S1x16x384) ![0, 0, 0] S1x16x384.size inb_S1x16x384_S1x16x384_0_0_0

/-- The output block after the body, from the eight input blocks: the blend, stored over the whole block. -/
def blended (x0 x1 x2 x3 : Vec F S1x16x384x16 .f32) (w4 w5 w6 w7 : Vec F S1x16x384 .f32) : Vec F S1x16x384x16 .f32 :=
  View.canon [⟨boxX, k0_pay1 (k0_pay2 (View.ld w4 boxW) (View.ld w5 boxW) (View.ld w6 boxW) (View.ld x0 boxX) (View.ld x1 boxX) (View.ld x2 boxX))
    (k0_pay3 (View.ld w7 boxW) (View.ld x3 boxX))⟩]

/-- The store's rectangle is the whole block. -/
theorem covered (p0 : Vec F S1x16x384x16 .f32) (y : S1x16x384x16.Idx) :
    ∃ pc ∈ ([⟨boxX, p0⟩] : List (View.Piece (Elt F) S1x16x384x16 .f32)), y ∈ pc.1.set :=
  View.cover_of_tiled [⟨boxX, p0⟩] S1x16x384x16.size (by rfl) y

set_option maxHeartbeats 1000000 in
/-- The body on whole staging buffers, the inputs' at given contents and the output's at anything: it reads the eight
    inputs, leaves them as they were, and leaves the output's buffer at `blended` of them. -/
theorem sound_kernel (c : Dev nD) (E : Set ℕ) (i : grid0.Coords) (a0 : Memref sig .tc .vmem S1x16x384x16 .f32) (h0 : a0.IsWhole) (a1 : Memref sig .tc .vmem S1x16x384x16 .f32) (h1 : a1.IsWhole) (a2 : Memref sig .tc .vmem S1x16x384x16 .f32) (h2 : a2.IsWhole) (a3 : Memref sig .tc .vmem S1x16x384x16 .f32) (h3 : a3.IsWhole) (a4 : Memref sig .tc .vmem S1x16x384 .f32) (h4 : a4.IsWhole) (a5 : Memref sig .tc .vmem S1x16x384 .f32) (h5 : a5.IsWhole) (a6 : Memref sig .tc .vmem S1x16x384 .f32) (h6 : a6.IsWhole) (a7 : Memref sig .tc .vmem S1x16x384 .f32) (h7 : a7.IsWhole) (a8 : Memref sig .tc .vmem S1x16x384x16 .f32) (h8 : a8.IsWhole)
    (x0 x1 x2 x3 : Vec F S1x16x384x16 .f32) (w4 w5 w6 w7 : Vec F S1x16x384 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare w4 ∗ owns (c : Thread nD τ) a5 fullShare w5 ∗ owns (c : Thread nD τ) a6 fullShare w6 ∗ owns (c : Thread nD τ) a7 fullShare w7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare w4 ∗ owns (c : Thread nD τ) a5 fullShare w5 ∗ owns (c : Thread nD τ) a6 fullShare w6 ∗ owns (c : Thread nD τ) a7 fullShare w7 ∗ owns (c : Thread nD τ) a8 fullShare (blended x0 x1 x2 x3 w4 w5 w6 w7)) -∗ K ⟨⟩))
      ⊢ wp frame (wpE (defs₀ (F := F)) Variants.none c none) E (cc0__blend_kernel i a0 h0 a1 h1 a2 h2 a3 h3 a4 h4 a5 h5 a6 h6 a7 h7 a8 h8) K := by
  simp only [cc0__blend_kernel_eq_skeleton]; unfold cc0__blend_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (covered _)

/-! ## The proof data -/

/-- On core `c`: the arrays as the region finds them; after the body at point `t` each input's buffer still at its
    block and the output's at the blend of the eight input blocks; nothing carried from point to point beyond that. -/
def dats (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => tile m c 6 t
    | ⟨7, _⟩ => tile m c 7 t
    | ⟨8, _⟩ => blended (tile m c 0 t) (tile m c 1 t) (tile m c 2 t) (tile m c 3 t) (tile m c 4 t) (tile m c 5 t) (tile m c 6 t) (tile m c 7 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem left0 (c : Dev nD) (t : Fin cfg0.N) : (dats m 0 c).after 0 t = tile m c 0 t := by dsimp only [dats]
theorem left1 (c : Dev nD) (t : Fin cfg0.N) : (dats m 0 c).after 1 t = tile m c 1 t := by dsimp only [dats]
theorem left2 (c : Dev nD) (t : Fin cfg0.N) : (dats m 0 c).after 2 t = tile m c 2 t := by dsimp only [dats]
theorem left3 (c : Dev nD) (t : Fin cfg0.N) : (dats m 0 c).after 3 t = tile m c 3 t := by dsimp only [dats]
theorem left4 (c : Dev nD) (t : Fin cfg0.N) : (dats m 0 c).after 4 t = tile m c 4 t := by dsimp only [dats]
theorem left5 (c : Dev nD) (t : Fin cfg0.N) : (dats m 0 c).after 5 t = tile m c 5 t := by dsimp only [dats]
theorem left6 (c : Dev nD) (t : Fin cfg0.N) : (dats m 0 c).after 6 t = tile m c 6 t := by dsimp only [dats]
theorem left7 (c : Dev nD) (t : Fin cfg0.N) : (dats m 0 c).after 7 t = tile m c 7 t := by dsimp only [dats]
theorem left8 (c : Dev nD) (t : Fin cfg0.N) : (dats m 0 c).after 8 t
    = blended (tile m c 0 t) (tile m c 1 t) (tile m c 2 t) (tile m c 3 t) (tile m c 4 t) (tile m c 5 t) (tile m c 6 t) (tile m c 7 t) := by dsimp only [dats]

theorem found0 (c : Dev nD) (t : Fin cfg0.N) (d) : (dats m 0 c).before 0 t d = tile m c 0 t :=
  found0_of m (dats m 0 c) (A_eq m c 0) (left0 m c) t d
theorem found1 (c : Dev nD) (t : Fin cfg0.N) (d) : (dats m 0 c).before 1 t d = tile m c 1 t :=
  found1_of m (dats m 0 c) (A_eq m c 1) (left1 m c) t d
theorem found2 (c : Dev nD) (t : Fin cfg0.N) (d) : (dats m 0 c).before 2 t d = tile m c 2 t :=
  found2_of m (dats m 0 c) (A_eq m c 2) (left2 m c) t d
theorem found3 (c : Dev nD) (t : Fin cfg0.N) (d) : (dats m 0 c).before 3 t d = tile m c 3 t :=
  found3_of m (dats m 0 c) (A_eq m c 3) (left3 m c) t d
theorem found4 (c : Dev nD) (t : Fin cfg0.N) (d) : (dats m 0 c).before 4 t d = tile m c 4 t :=
  found4_of m (dats m 0 c) (A_eq m c 4) (left4 m c) t d
theorem found5 (c : Dev nD) (t : Fin cfg0.N) (d) : (dats m 0 c).before 5 t d = tile m c 5 t :=
  found5_of m (dats m 0 c) (A_eq m c 5) (left5 m c) t d
theorem found6 (c : Dev nD) (t : Fin cfg0.N) (d) : (dats m 0 c).before 6 t d = tile m c 6 t :=
  found6_of m (dats m 0 c) (A_eq m c 6) (left6 m c) t d
theorem found7 (c : Dev nD) (t : Fin cfg0.N) (d) : (dats m 0 c).before 7 t d = tile m c 7 t :=
  found7_of m (dats m 0 c) (A_eq m c 7) (left7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5, found6, found7]
  rw [show (dats m 0 c).Φ t.succ = (dats m 0 c).Φ t.castSucc from rfl,
    show (dats m 0 c).owesAt () t.succ = (dats m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (tile m c 0 t) (tile m c 1 t) (tile m c 2 t) (tile m c 3 t) (tile m c 4 t) (tile m c 5 t) (tile m c 6 t) (tile m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; afterwards every window's array holds what the
    blocks written back make of it, and every other unscoped buffer what the host lines left. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := reaches m Variants.none) (hA := A_eq m) (hΦ := fun _ _ => rfl)

/-- The program runs and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Blend

end
-- ==== Proof.LibLastAxis.lean ====
/-
  A rank-3 array repeated along a new last axis, read at an index.

  A vector `w : [a, b, c]` shape-cast to `[a, b, c, 1]` and then broadcast to `[a, b, c, d]` holds, at the index
  `(i, j, k, l)`, the entry `w (i, j, k)`: the cast keeps the row-major position (the new axis has extent one), and the
  broadcast ignores the coordinate on the axis it repeats along. This is the vector form of `w[..., None] * x`.
-/
import Idealize.ShloMosaic.Lib.Pipeline.Value

noncomputable section

namespace Cert.LastAxis

open Idealize.ShloMosaic

variable {α : Type}

/-- The first three coordinates of a rank-4 index. -/
def lead {a b c d : Nat} (j : (⟨4, ![a, b, c, d]⟩ : Shape).Idx) : (⟨3, ![a, b, c]⟩ : Shape).Idx := fun x => match x with
  | ⟨0, _⟩ => ⟨(j 0).val, (j 0).isLt⟩
  | ⟨1, _⟩ => ⟨(j 1).val, (j 1).isLt⟩
  | ⟨2, _⟩ => ⟨(j 2).val, (j 2).isLt⟩

/-- The same three coordinates followed by the only coordinate of a unit axis. -/
def leadUnit {a b c d : Nat} (j : (⟨4, ![a, b, c, d]⟩ : Shape).Idx) : (⟨4, ![a, b, c, 1]⟩ : Shape).Idx := fun x => match x with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨0, Nat.one_pos⟩

/-- `[a,b,c] → [a,b,c,1] → [a,b,c,d]` read at `(i,j,k,l)` is the operand at `(i,j,k)`. -/
theorem broadcastTo_shapeCast_apply {a b c d : Nat} (w : (⟨3, ![a, b, c]⟩ : Shape).Idx → α)
    (h2 : (⟨3, ![a, b, c]⟩ : Shape).ShapeCasts ⟨4, ![a, b, c, 1]⟩)
    (h3 : (⟨4, ![a, b, c, 1]⟩ : Shape).Broadcasts ⟨4, ![a, b, c, d]⟩) (j : (⟨4, ![a, b, c, d]⟩ : Shape).Idx) :
    broadcastTo ⟨4, ![a, b, c, d]⟩ (shapeCast ⟨4, ![a, b, c, 1]⟩ w h2) h3 j = w (lead j) := by
  have e1 : broadcastTo ⟨4, ![a, b, c, d]⟩ (shapeCast ⟨4, ![a, b, c, 1]⟩ w h2) h3 j
      = shapeCast ⟨4, ![a, b, c, 1]⟩ w h2 (leadUnit j) :=
    broadcastTo_apply _ h3 j (leadUnit j) (fun x => match x with
      | ⟨0, _⟩ => by
          show (j 0).val = if a = 1 then 0 else (j 0).val
          split
          · have := (j 0).isLt; change (j 0).val < a at this; omega
          · rfl
      | ⟨1, _⟩ => by
          show (j 1).val = if b = 1 then 0 else (j 1).val
          split
          · have := (j 1).isLt; change (j 1).val < b at this; omega
          · rfl
      | ⟨2, _⟩ => by
          show (j 2).val = if c = 1 then 0 else (j 2).val
          split
          · have := (j 2).isLt; change (j 2).val < c at this; omega
          · rfl
      | ⟨3, _⟩ => by
          show 0 = if (1 : Nat) = 1 then 0 else (j 3).val
          rw [if_pos rfl])
  have e2 : shapeCast ⟨4, ![a, b, c, 1]⟩ w h2 (leadUnit j) = w (lead j) :=
    shapeCast_apply w h2 (leadUnit j) (lead j) (by
      rw [Shape.rowMajor_val_three, Shape.rowMajor_val_four]
      show ((j 0).val * b + (j 1).val) * c + (j 2).val = (((j 0).val * b + (j 1).val) * c + (j 2).val) * 1 + 0
      rw [Nat.mul_one, Nat.add_zero])
  exact e1.trans e2

end Cert.LastAxis

end
-- ==== Proof.KernelIdealValue.lean ====
/-
  The result array of the blend program, as one function of the arrays the host lines leave.

  At grid point t = 24·b + h the region writes back the block [b, 16h .. 16h+15, :, :] of the result, and the eight
  input windows sit over the same rows: the four corner images' blocks at the same four coordinates, the four weight
  maps' blocks at the first three. The body's value at an entry (0, r, x, ch) of its block is
      ((w_nw[r,x] · i_nw[r,x,ch] + w_ne[r,x] · i_ne[r,x,ch]) + w_sw[r,x] · i_sw[r,x,ch]) + w_se[r,x] · i_se[r,x,ch],
  the weight blocks being given a trailing unit axis and repeated along the channels. So point t writes block t of the
  whole-array function `blendAll`; the 384 blocks tile the result (row q of image b lies in the block of point
  24·b + q / 16); hence the result array IS `blendAll` of the eight arrays.
-/
import proofs.«110488_j13065290514713_2_alg».proof.Proof.KernelIdealRun
import proofs.«110488_j13065290514713_2_alg».proof.Proof.LibLastAxis
import Idealize.ShloMosaic.Lib.Pipeline.Value

set_option maxRecDepth 16384

noncomputable section

namespace Cert.KernelIdeal.BlendValue

open Cert.KernelIdeal Cert.KernelIdeal.Gen Cert.KernelIdeal.Blend Cert.LastAxis
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl

/-- The blend of four images by four weight maps, entry by entry: the weight at an entry's first three coordinates
    times the image's entry, summed left to right. -/
def blendAll (x0 x1 x2 x3 : S16x384x384x16.Idx → Elt F .f32) (w4 w5 w6 w7 : S16x384x384.Idx → Elt F .f32) :
    S16x384x384x16.Idx → Elt F .f32 :=
  fun i => FloatOps.addf (FloatOps.addf (FloatOps.addf (FloatOps.mulf (w4 (lead i)) (x0 i)) (FloatOps.mulf (w5 (lead i)) (x1 i))) (FloatOps.mulf (w6 (lead i)) (x2 i))) (FloatOps.mulf (w7 (lead i)) (x3 i))

/-! ## The body's value at an entry of its block -/

/-- The body's stored value is the pointwise blend of the image blocks by the weight blocks, each weight block given a
    trailing unit axis and repeated along it (the body's shape casts to the same shape are the identity). -/
theorem pay_eq (x0 x1 x2 x3 : Vec F S1x16x384x16 .f32) (w4 w5 w6 w7 : Vec F S1x16x384 .f32) :
    k0_pay1 (k0_pay2 w4 w5 w6 x0 x1 x2) (k0_pay3 w7 x3)
      = addf (addf (addf (mulf (broadcastTo S1x16x384x16 (shapeCast S1x16x384x1 w4 shapeCasts_S1x16x384_S1x16x384x1) broadcasts_S1x16x384x1_S1x16x384x16) x0)
          (mulf (broadcastTo S1x16x384x16 (shapeCast S1x16x384x1 w5 shapeCasts_S1x16x384_S1x16x384x1) broadcasts_S1x16x384x1_S1x16x384x16) x1))
          (mulf (broadcastTo S1x16x384x16 (shapeCast S1x16x384x1 w6 shapeCasts_S1x16x384_S1x16x384x1) broadcasts_S1x16x384x1_S1x16x384x16) x2))
          (mulf (broadcastTo S1x16x384x16 (shapeCast S1x16x384x1 w7 shapeCasts_S1x16x384_S1x16x384x1) broadcasts_S1x16x384x1_S1x16x384x16) x3) := by
  unfold k0_pay1 k0_pay2 k0_pay3
  simp only [shapeCast_self]

/-- At an entry `j` of the block: the weights at `j`'s first three coordinates, the images at `j`. -/
theorem pay_apply (x0 x1 x2 x3 : Vec F S1x16x384x16 .f32) (w4 w5 w6 w7 : Vec F S1x16x384 .f32) (j : S1x16x384x16.Idx) :
    k0_pay1 (k0_pay2 w4 w5 w6 x0 x1 x2) (k0_pay3 w7 x3) j
      = FloatOps.addf (FloatOps.addf (FloatOps.addf (FloatOps.mulf (w4 (lead j)) (x0 j)) (FloatOps.mulf (w5 (lead j)) (x1 j))) (FloatOps.mulf (w6 (lead j)) (x2 j))) (FloatOps.mulf (w7 (lead j)) (x3 j)) := by
  rw [pay_eq]
  show FloatOps.addf (FloatOps.addf (FloatOps.addf (FloatOps.mulf (broadcastTo S1x16x384x16 (shapeCast S1x16x384x1 w4 shapeCasts_S1x16x384_S1x16x384x1) broadcasts_S1x16x384x1_S1x16x384x16 j) (x0 j)) (FloatOps.mulf (broadcastTo S1x16x384x16 (shapeCast S1x16x384x1 w5 shapeCasts_S1x16x384_S1x16x384x1) broadcasts_S1x16x384x1_S1x16x384x16 j) (x1 j))) (FloatOps.mulf (broadcastTo S1x16x384x16 (shapeCast S1x16x384x1 w6 shapeCasts_S1x16x384_S1x16x384x1) broadcasts_S1x16x384x1_S1x16x384x16 j) (x2 j))) (FloatOps.mulf (broadcastTo S1x16x384x16 (shapeCast S1x16x384x1 w7 shapeCasts_S1x16x384_S1x16x384x1) broadcasts_S1x16x384x1_S1x16x384x16 j) (x3 j)) = _
  rw [broadcastTo_shapeCast_apply w4, broadcastTo_shapeCast_apply w5, broadcastTo_shapeCast_apply w6, broadcastTo_shapeCast_apply w7]

/-! ## Where the windows sit -/

/-- Point `t` writes the block of image `t / 24`, row group `t % 24`. -/
theorem where_out : ∀ t : Fin cfg0.N, win0_8.index t (0 : Fin 4) = t.val / 24 ∧ win0_8.index t (1 : Fin 4) = t.val % 24
    ∧ win0_8.index t (2 : Fin 4) = 0 ∧ win0_8.index t (3 : Fin 4) = 0 :=
  (by decide +kernel : ∀ t : Fin grid0.N, _)

/-- Every image window sits where the result's window does. -/
theorem where_img : ∀ t : Fin cfg0.N,
    (win0_0.index t (0 : Fin 4) = win0_8.index t (0 : Fin 4) ∧ win0_0.index t (1 : Fin 4) = win0_8.index t (1 : Fin 4) ∧ win0_0.index t (2 : Fin 4) = win0_8.index t (2 : Fin 4) ∧ win0_0.index t (3 : Fin 4) = win0_8.index t (3 : Fin 4))
    ∧ (win0_1.index t (0 : Fin 4) = win0_8.index t (0 : Fin 4) ∧ win0_1.index t (1 : Fin 4) = win0_8.index t (1 : Fin 4) ∧ win0_1.index t (2 : Fin 4) = win0_8.index t (2 : Fin 4) ∧ win0_1.index t (3 : Fin 4) = win0_8.index t (3 : Fin 4))
    ∧ (win0_2.index t (0 : Fin 4) = win0_8.index t (0 : Fin 4) ∧ win0_2.index t (1 : Fin 4) = win0_8.index t (1 : Fin 4) ∧ win0_2.index t (2 : Fin 4) = win0_8.index t (2 : Fin 4) ∧ win0_2.index t (3 : Fin 4) = win0_8.index t (3 : Fin 4))
    ∧ (win0_3.index t (0 : Fin 4) = win0_8.index t (0 : Fin 4) ∧ win0_3.index t (1 : Fin 4) = win0_8.index t (1 : Fin 4) ∧ win0_3.index t (2 : Fin 4) = win0_8.index t (2 : Fin 4) ∧ win0_3.index t (3 : Fin 4) = win0_8.index t (3 : Fin 4)) :=
  (by decide +kernel : ∀ t : Fin grid0.N, _)

/-- Every weight window sits at the result window's first three coordinates. -/
theorem where_wt : ∀ t : Fin cfg0.N,
    (win0_4.index t (0 : Fin 3) = win0_8.index t (0 : Fin 4) ∧ win0_4.index t (1 : Fin 3) = win0_8.index t (1 : Fin 4) ∧ win0_4.index t (2 : Fin 3) = win0_8.index t (2 : Fin 4))
    ∧ (win0_5.index t (0 : Fin 3) = win0_8.index t (0 : Fin 4) ∧ win0_5.index t (1 : Fin 3) = win0_8.index t (1 : Fin 4) ∧ win0_5.index t (2 : Fin 3) = win0_8.index t (2 : Fin 4))
    ∧ (win0_6.index t (0 : Fin 3) = win0_8.index t (0 : Fin 4) ∧ win0_6.index t (1 : Fin 3) = win0_8.index t (1 : Fin 4) ∧ win0_6.index t (2 : Fin 3) = win0_8.index t (2 : Fin 4))
    ∧ (win0_7.index t (0 : Fin 3) = win0_8.index t (0 : Fin 4) ∧ win0_7.index t (1 : Fin 3) = win0_8.index t (1 : Fin 4) ∧ win0_7.index t (2 : Fin 3) = win0_8.index t (2 : Fin 4)) :=
  (by decide +kernel : ∀ t : Fin grid0.N, _)

/-- An entry of image window 0's block is the array's entry at the same place as in the result's block. -/
theorem img0_at (t : Fin cfg0.N) (j : S1x16x384x16.Idx) : ((cfg0.win 0).blk t).view.emb j = ((cfg0.win 8).blk t).view.emb j := by
  obtain ⟨e0, e1, e2, e3⟩ := (where_img t).1
  funext a; apply Fin.ext
  match a with
  | ⟨0, _⟩ => show win0_0.index t (0 : Fin 4) * 1 + 1 * (j 0).val = win0_8.index t (0 : Fin 4) * 1 + 1 * (j 0).val; omega
  | ⟨1, _⟩ => show win0_0.index t (1 : Fin 4) * 16 + 1 * (j 1).val = win0_8.index t (1 : Fin 4) * 16 + 1 * (j 1).val; omega
  | ⟨2, _⟩ => show win0_0.index t (2 : Fin 4) * 384 + 1 * (j 2).val = win0_8.index t (2 : Fin 4) * 384 + 1 * (j 2).val; omega
  | ⟨3, _⟩ => show win0_0.index t (3 : Fin 4) * 16 + 1 * (j 3).val = win0_8.index t (3 : Fin 4) * 16 + 1 * (j 3).val; omega
/-- An entry of image window 1's block is the array's entry at the same place as in the result's block. -/
theorem img1_at (t : Fin cfg0.N) (j : S1x16x384x16.Idx) : ((cfg0.win 1).blk t).view.emb j = ((cfg0.win 8).blk t).view.emb j := by
  obtain ⟨e0, e1, e2, e3⟩ := (where_img t).2.1
  funext a; apply Fin.ext
  match a with
  | ⟨0, _⟩ => show win0_1.index t (0 : Fin 4) * 1 + 1 * (j 0).val = win0_8.index t (0 : Fin 4) * 1 + 1 * (j 0).val; omega
  | ⟨1, _⟩ => show win0_1.index t (1 : Fin 4) * 16 + 1 * (j 1).val = win0_8.index t (1 : Fin 4) * 16 + 1 * (j 1).val; omega
  | ⟨2, _⟩ => show win0_1.index t (2 : Fin 4) * 384 + 1 * (j 2).val = win0_8.index t (2 : Fin 4) * 384 + 1 * (j 2).val; omega
  | ⟨3, _⟩ => show win0_1.index t (3 : Fin 4) * 16 + 1 * (j 3).val = win0_8.index t (3 : Fin 4) * 16 + 1 * (j 3).val; omega
/-- An entry of image window 2's block is the array's entry at the same place as in the result's block. -/
theorem img2_at (t : Fin cfg0.N) (j : S1x16x384x16.Idx) : ((cfg0.win 2).blk t).view.emb j = ((cfg0.win 8).blk t).view.emb j := by
  obtain ⟨e0, e1, e2, e3⟩ := (where_img t).2.2.1
  funext a; apply Fin.ext
  match a with
  | ⟨0, _⟩ => show win0_2.index t (0 : Fin 4) * 1 + 1 * (j 0).val = win0_8.index t (0 : Fin 4) * 1 + 1 * (j 0).val; omega
  | ⟨1, _⟩ => show win0_2.index t (1 : Fin 4) * 16 + 1 * (j 1).val = win0_8.index t (1 : Fin 4) * 16 + 1 * (j 1).val; omega
  | ⟨2, _⟩ => show win0_2.index t (2 : Fin 4) * 384 + 1 * (j 2).val = win0_8.index t (2 : Fin 4) * 384 + 1 * (j 2).val; omega
  | ⟨3, _⟩ => show win0_2.index t (3 : Fin 4) * 16 + 1 * (j 3).val = win0_8.index t (3 : Fin 4) * 16 + 1 * (j 3).val; omega
/-- An entry of image window 3's block is the array's entry at the same place as in the result's block. -/
theorem img3_at (t : Fin cfg0.N) (j : S1x16x384x16.Idx) : ((cfg0.win 3).blk t).view.emb j = ((cfg0.win 8).blk t).view.emb j := by
  obtain ⟨e0, e1, e2, e3⟩ := (where_img t).2.2.2
  funext a; apply Fin.ext
  match a with
  | ⟨0, _⟩ => show win0_3.index t (0 : Fin 4) * 1 + 1 * (j 0).val = win0_8.index t (0 : Fin 4) * 1 + 1 * (j 0).val; omega
  | ⟨1, _⟩ => show win0_3.index t (1 : Fin 4) * 16 + 1 * (j 1).val = win0_8.index t (1 : Fin 4) * 16 + 1 * (j 1).val; omega
  | ⟨2, _⟩ => show win0_3.index t (2 : Fin 4) * 384 + 1 * (j 2).val = win0_8.index t (2 : Fin 4) * 384 + 1 * (j 2).val; omega
  | ⟨3, _⟩ => show win0_3.index t (3 : Fin 4) * 16 + 1 * (j 3).val = win0_8.index t (3 : Fin 4) * 16 + 1 * (j 3).val; omega

/-- An entry of weight window 4's block, at the first three coordinates of an entry of the result's block, is the array's
    entry at the first three coordinates of that entry's place. -/
theorem wt4_at (t : Fin cfg0.N) (j : S1x16x384x16.Idx) :
    ((cfg0.win 4).blk t).view.emb (lead j) = lead (((cfg0.win 8).blk t).view.emb j : S16x384x384x16.Idx) := by
  obtain ⟨e0, e1, e2⟩ := (where_wt t).1
  funext a; apply Fin.ext
  match a with
  | ⟨0, _⟩ => show win0_4.index t (0 : Fin 3) * 1 + 1 * (j 0).val = win0_8.index t (0 : Fin 4) * 1 + 1 * (j 0).val; omega
  | ⟨1, _⟩ => show win0_4.index t (1 : Fin 3) * 16 + 1 * (j 1).val = win0_8.index t (1 : Fin 4) * 16 + 1 * (j 1).val; omega
  | ⟨2, _⟩ => show win0_4.index t (2 : Fin 3) * 384 + 1 * (j 2).val = win0_8.index t (2 : Fin 4) * 384 + 1 * (j 2).val; omega
/-- An entry of weight window 5's block, at the first three coordinates of an entry of the result's block, is the array's
    entry at the first three coordinates of that entry's place. -/
theorem wt5_at (t : Fin cfg0.N) (j : S1x16x384x16.Idx) :
    ((cfg0.win 5).blk t).view.emb (lead j) = lead (((cfg0.win 8).blk t).view.emb j : S16x384x384x16.Idx) := by
  obtain ⟨e0, e1, e2⟩ := (where_wt t).2.1
  funext a; apply Fin.ext
  match a with
  | ⟨0, _⟩ => show win0_5.index t (0 : Fin 3) * 1 + 1 * (j 0).val = win0_8.index t (0 : Fin 4) * 1 + 1 * (j 0).val; omega
  | ⟨1, _⟩ => show win0_5.index t (1 : Fin 3) * 16 + 1 * (j 1).val = win0_8.index t (1 : Fin 4) * 16 + 1 * (j 1).val; omega
  | ⟨2, _⟩ => show win0_5.index t (2 : Fin 3) * 384 + 1 * (j 2).val = win0_8.index t (2 : Fin 4) * 384 + 1 * (j 2).val; omega
/-- An entry of weight window 6's block, at the first three coordinates of an entry of the result's block, is the array's
    entry at the first three coordinates of that entry's place. -/
theorem wt6_at (t : Fin cfg0.N) (j : S1x16x384x16.Idx) :
    ((cfg0.win 6).blk t).view.emb (lead j) = lead (((cfg0.win 8).blk t).view.emb j : S16x384x384x16.Idx) := by
  obtain ⟨e0, e1, e2⟩ := (where_wt t).2.2.1
  funext a; apply Fin.ext
  match a with
  | ⟨0, _⟩ => show win0_6.index t (0 : Fin 3) * 1 + 1 * (j 0).val = win0_8.index t (0 : Fin 4) * 1 + 1 * (j 0).val; omega
  | ⟨1, _⟩ => show win0_6.index t (1 : Fin 3) * 16 + 1 * (j 1).val = win0_8.index t (1 : Fin 4) * 16 + 1 * (j 1).val; omega
  | ⟨2, _⟩ => show win0_6.index t (2 : Fin 3) * 384 + 1 * (j 2).val = win0_8.index t (2 : Fin 4) * 384 + 1 * (j 2).val; omega
/-- An entry of weight window 7's block, at the first three coordinates of an entry of the result's block, is the array's
    entry at the first three coordinates of that entry's place. -/
theorem wt7_at (t : Fin cfg0.N) (j : S1x16x384x16.Idx) :
    ((cfg0.win 7).blk t).view.emb (lead j) = lead (((cfg0.win 8).blk t).view.emb j : S16x384x384x16.Idx) := by
  obtain ⟨e0, e1, e2⟩ := (where_wt t).2.2.2
  funext a; apply Fin.ext
  match a with
  | ⟨0, _⟩ => show win0_7.index t (0 : Fin 3) * 1 + 1 * (j 0).val = win0_8.index t (0 : Fin 4) * 1 + 1 * (j 0).val; omega
  | ⟨1, _⟩ => show win0_7.index t (1 : Fin 3) * 16 + 1 * (j 1).val = win0_8.index t (1 : Fin 4) * 16 + 1 * (j 1).val; omega
  | ⟨2, _⟩ => show win0_7.index t (2 : Fin 3) * 384 + 1 * (j 2).val = win0_8.index t (2 : Fin 4) * 384 + 1 * (j 2).val; omega

/-! ## From the blocks to the array -/

set_option maxHeartbeats 4000000 in
/-- What point `t` writes back is block `t` of `blendAll` of the eight arrays as the region finds them. -/
theorem flushed_eq (c : Dev nD) (t : Fin cfg0.N) :
    (dats m 0 c).flushed 8 t = ((cfg0.win 8).blk t).view.read (Elt F)
      (blendAll (entry m c main_v64) (entry m c main_v87) (entry m c main_v110) (entry m c main_v133) (entry m c main_v24) (entry m c main_v27) (entry m c main_v30) (entry m c main_v33)) := by
  show (cfg0.win 8).cut (grid0.coords t) ((dats m 0 c).after 8 t) = _
  rw [left8]
  unfold blended
  rw [View.canon_unit_zero zero4]
  simp only [View.ld_unit_zero (S := S1x16x384x16) zero4, View.ld_unit_zero (S := S1x16x384) zero3]
  funext j
  refine (pay_apply (F := F) (tile m c 0 t) (tile m c 1 t) (tile m c 2 t) (tile m c 3 t) (tile m c 4 t) (tile m c 5 t) (tile m c 6 t) (tile m c 7 t) j).trans ?_
  show FloatOps.addf (FloatOps.addf (FloatOps.addf (FloatOps.mulf (entry m c main_v24 (((cfg0.win 4).blk t).view.emb (lead j))) (entry m c main_v64 (((cfg0.win 0).blk t).view.emb j))) (FloatOps.mulf (entry m c main_v27 (((cfg0.win 5).blk t).view.emb (lead j))) (entry m c main_v87 (((cfg0.win 1).blk t).view.emb j)))) (FloatOps.mulf (entry m c main_v30 (((cfg0.win 6).blk t).view.emb (lead j))) (entry m c main_v110 (((cfg0.win 2).blk t).view.emb j)))) (FloatOps.mulf (entry m c main_v33 (((cfg0.win 7).blk t).view.emb (lead j))) (entry m c main_v133 (((cfg0.win 3).blk t).view.emb j)))
    = FloatOps.addf (FloatOps.addf (FloatOps.addf (FloatOps.mulf (entry m c main_v24 (lead (((cfg0.win 8).blk t).view.emb j : S16x384x384x16.Idx))) (entry m c main_v64 (((cfg0.win 8).blk t).view.emb j))) (FloatOps.mulf (entry m c main_v27 (lead (((cfg0.win 8).blk t).view.emb j : S16x384x384x16.Idx))) (entry m c main_v87 (((cfg0.win 8).blk t).view.emb j)))) (FloatOps.mulf (entry m c main_v30 (lead (((cfg0.win 8).blk t).view.emb j : S16x384x384x16.Idx))) (entry m c main_v110 (((cfg0.win 8).blk t).view.emb j)))) (FloatOps.mulf (entry m c main_v33 (lead (((cfg0.win 8).blk t).view.emb j : S16x384x384x16.Idx))) (entry m c main_v133 (((cfg0.win 8).blk t).view.emb j)))
  rw [img0_at, img1_at, img2_at, img3_at, wt4_at, wt5_at, wt6_at, wt7_at]

/-- An entry of the result lies in point `t`'s block iff each coordinate lies in the block's range. -/
theorem in_block (t : Fin cfg0.N) (i : S16x384x384x16.Idx) :
    i ∈ ((cfg0.win 8).blk t).view.set ↔ ∀ a : Fin 4, win0_8.index t a * S1x16x384x16.size a ≤ (i a).val ∧ (i a).val < win0_8.index t a * S1x16x384x16.size a + S1x16x384x16.size a := by
  show i ∈ ((View.whole main_v134).slice (win0_8.rect t)).set ↔ _
  rw [View.set_slice_whole, Rect.mem_set_unit]
  exact Iff.rfl

/-- The blocks tile the result: entry (b, q, x, ch) lies in the block of point 24·b + q / 16. -/
theorem tiled (i : S16x384x384x16.Idx) : ∃ t : Fin cfg0.N, (cfg0.win 8).flush t = true ∧ i ∈ ((cfg0.win 8).blk t).view.set := by
  have h0 : (i 0).val < 16 := (i 0).isLt
  have h1 : (i 1).val < 384 := (i 1).isLt
  have h2 : (i 2).val < 384 := (i 2).isLt
  have h3 : (i 3).val < 16 := (i 3).isLt
  obtain ⟨t, ht⟩ : ∃ t : Fin cfg0.N, t.val = (i 0).val * 24 + (i 1).val / 16 :=
    ⟨⟨(i 0).val * 24 + (i 1).val / 16, by have := N_0; show _ < grid0.N; omega⟩, rfl⟩
  obtain ⟨e0, e1, e2, e3⟩ := where_out t
  refine ⟨t, flush0_8 t, ?_⟩
  rw [in_block]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 384 ≤ (i 2).val ∧ (i 2).val < win0_8.index t (2 : Fin 4) * 384 + 384; omega
  | ⟨3, _⟩ => show win0_8.index t (3 : Fin 4) * 16 ≤ (i 3).val ∧ (i 3).val < win0_8.index t (3 : Fin 4) * 16 + 16; omega

/-- The result array after the run. -/
theorem final (c : Dev nD) : (dats m 0 c).arrAt 8 cfg0.N
    = blendAll (entry m c main_v64) (entry m c main_v87) (entry m c main_v110) (entry m c main_v133) (entry m c main_v24) (entry m c main_v27) (entry m c main_v30) (entry m c main_v33) :=
  (dats m 0 c).arrAt_eq_of_cover 8 _ (fun t _ => flushed_eq m c t) tiled

/-- The program runs; its result is `blendAll` of the eight arrays the host lines leave; its arguments are as launched. -/
theorem run : θ_run defs (onTc (τ := τ) (main (F := F))) ⟨m, fun _ => 0, ρ⟩ fun r => ∀ c : Dev nD,
      r.2.mem ((c.tc : Thread nD τ).loc main_v134) = blendAll (entry m c main_v64) (entry m c main_v87) (entry m c main_v110) (entry m c main_v133) (entry m c main_v24) (entry m c main_v27) (entry m c main_v30) (entry m c main_v33)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 8).trans (final m c),
      ((h c).2 main_arg0 (Pipeline.mem_restRefs_of main_arg0 (by decide) (by decide))).trans (entry_main_arg0 m c),
      ((h c).2 main_arg1 (Pipeline.mem_restRefs_of main_arg1 (by decide) (by decide))).trans (entry_main_arg1 m c)⟩)
    (run_main m ρ)

end Cert.KernelIdeal.BlendValue

end
-- ==== Proof.LibNary3.lean ====
/-
  A host operation with three operands read at its result, and a three-piece join taken apart.

  The library reads an `nary` operation at its result buffer as its function of the family `fun k => F (xs k)` of the
  operands' contents, and, for a literal family of FOUR references, as the function of the four contents each at its own
  reference, so that a rewriting pass can go on into them. `nary3_result'` is the same statement for a literal family of
  THREE references (a `stablehlo.concatenate` of three pieces), the family written with a named selector `pick3` whose
  three values are its three arguments. A rewriting pass does not enter the piece list of a `concatenate` (the join's
  side condition speaks of the list); `concat3_congr` enters it by hand: two three-piece joins of pieces of one shape
  agree when the pieces agree.
-/
import Idealize.ShloMosaic.Lib.StableHlo.Run

noncomputable section

namespace Cert.Nary3

open Idealize.ShloMosaic Idealize.ShloMosaic.StableHlo

variable {τ : Topo} {sig : RefSig} {Val : EltTy → Type}

/-- A family over `Fin 3` from its three members. -/
def pick3 {α : Fin 3 → Type} (a : α 0) (b : α 1) (c : α 2) : (k : Fin 3) → α k :=
  Fin.cons a (Fin.cons (α := fun i : Fin 2 => α i.succ) b (Fin.cons (α := fun i : Fin 1 => α i.succ.succ) c (fun i => i.elim0)))

theorem pick3_zero {α : Fin 3 → Type} (a : α 0) (b : α 1) (c : α 2) : pick3 a b c 0 = a := rfl
theorem pick3_one {α : Fin 3 → Type} (a : α 0) (b : α 1) (c : α 2) : pick3 a b c 1 = b := rfl
theorem pick3_two {α : Fin 3 → Type} (a : α 0) (b : α 1) (c : α 2) : pick3 a b c 2 = c := rfl

/-- `nary ![x, a, b] y f` at `y`: `f` of the three operands' contents, each at its own reference (the result reference
    left out of the rewriting index, for use in one `simp` pass). -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (pick3 (α := fun k => ((![x, a, b] : Fin 3 → Ref sig .tc) k).ty.Contents Val)
            (F (Proc.devRef .tc x)) (F (Proc.devRef .tc a)) (F (Proc.devRef .tc b))) := by
  rw [nary_result]; congr 1; funext k; fin_cases k <;> rfl

/-- Two three-piece joins along one axis agree when their pieces do (the side condition speaks of the pieces' shapes only). -/
theorem concat3_congr {α : Type} {t s : Shape} (a : Fin t.rank) {p0 p0' p1 p1' p2 p2' : s.Idx → α}
    (h : Shape.Concatenates (([⟨s, p0⟩, ⟨s, p1⟩, ⟨s, p2⟩] : List ((s : Shape) × (s.Idx → α))).map (·.1)) t a)
    (h' : Shape.Concatenates (([⟨s, p0'⟩, ⟨s, p1'⟩, ⟨s, p2'⟩] : List ((s : Shape) × (s.Idx → α))).map (·.1)) t a)
    (e0 : p0 = p0') (e1 : p1 = p1') (e2 : p2 = p2') :
    concatenate t a [⟨s, p0⟩, ⟨s, p1⟩, ⟨s, p2⟩] h = concatenate t a [⟨s, p0'⟩, ⟨s, p1'⟩, ⟨s, p2'⟩] h' := by
  subst e0 e1 e2; rfl

end Cert.Nary3

end
-- ==== Proof.HostStages.lean ====
/-
  The host lines of the blend program, stage by stage, are the reference's stages.

  The lines before the region fall into three runs. The first (45 lines) is float arithmetic on the sampling array: the
  pixel coordinates, their floors, the floors plus one, the four bilinear weights, and the first floor as an integer.
  The second (33 lines) turns the floors and floors plus one into the four clamped integer coordinates, min(511, max(0, ·)).
  The third (116 lines) builds, four times, the index triples (image number, row, column) and gathers the image rows at
  them. Each run is read with the contents it starts from left unnamed, so that no run is ever unfolded inside
  another; the buffers a run does not write pass through it. Composed, each of the eight arrays the region's windows
  sit over is the reference's stage of the same name at the program's two arguments.
-/
import proofs.«110488_j13065290514713_2_alg».proof.Proof.KernelIdealRun
import proofs.«110488_j13065290514713_2_alg».proof.Proof.Gen.ReferenceIdeal.Read

set_option maxRecDepth 16384

noncomputable section

namespace Cert.BlendStages

open Cert.KernelIdeal Cert.KernelIdeal.Gen Cert.KernelIdeal.Blend
open Idealize.ShloMosaic Idealize.ShloMosaic.TcCoe Idealize.SL.Sem Idealize.ShloMosaic.StableHlo

variable {F : FTy → Type} [FloatOps F]

/-! ## First run: the float arithmetic -/

set_option maxHeartbeats 2000000 in
theorem first_main_v24 (V : Valuation τ sig (Elt F)) :
    after hostOps0 V (Proc.devRef .tc main_v24) = Cert.ReferenceIdeal.Read.val_main_v24 (F := F) (V (Proc.devRef .tc main_arg1)) := by
  simp only [hostOps0]; after_results_simp <;> rfl
set_option maxHeartbeats 2000000 in
theorem first_main_v27 (V : Valuation τ sig (Elt F)) :
    after hostOps0 V (Proc.devRef .tc main_v27) = Cert.ReferenceIdeal.Read.val_main_v27 (F := F) (V (Proc.devRef .tc main_arg1)) := by
  simp only [hostOps0]; after_results_simp <;> rfl
set_option maxHeartbeats 2000000 in
theorem first_main_v30 (V : Valuation τ sig (Elt F)) :
    after hostOps0 V (Proc.devRef .tc main_v30) = Cert.ReferenceIdeal.Read.val_main_v30 (F := F) (V (Proc.devRef .tc main_arg1)) := by
  simp only [hostOps0]; after_results_simp <;> rfl
set_option maxHeartbeats 2000000 in
theorem first_main_v33 (V : Valuation τ sig (Elt F)) :
    after hostOps0 V (Proc.devRef .tc main_v33) = Cert.ReferenceIdeal.Read.val_main_v33 (F := F) (V (Proc.devRef .tc main_arg1)) := by
  simp only [hostOps0]; after_results_simp <;> rfl
set_option maxHeartbeats 2000000 in
theorem first_main_v34 (V : Valuation τ sig (Elt F)) :
    after hostOps0 V (Proc.devRef .tc main_v34) = Cert.ReferenceIdeal.Read.val_main_v34 (F := F) (V (Proc.devRef .tc main_arg1)) := by
  simp only [hostOps0]; after_results_simp <;> rfl
set_option maxHeartbeats 2000000 in
theorem first_main_v19 (V : Valuation τ sig (Elt F)) :
    after hostOps0 V (Proc.devRef .tc main_v19) = Cert.ReferenceIdeal.Read.val_main_v19 (F := F) (V (Proc.devRef .tc main_arg1)) := by
  simp only [hostOps0]; after_results_simp <;> rfl
set_option maxHeartbeats 2000000 in
theorem first_main_v17 (V : Valuation τ sig (Elt F)) :
    after hostOps0 V (Proc.devRef .tc main_v17) = Cert.ReferenceIdeal.Read.val_main_v17 (F := F) (V (Proc.devRef .tc main_arg1)) := by
  simp only [hostOps0]; after_results_simp <;> rfl
set_option maxHeartbeats 2000000 in
theorem first_main_v21 (V : Valuation τ sig (Elt F)) :
    after hostOps0 V (Proc.devRef .tc main_v21) = Cert.ReferenceIdeal.Read.val_main_v21 (F := F) (V (Proc.devRef .tc main_arg1)) := by
  simp only [hostOps0]; after_results_simp <;> rfl
theorem first_main_c (V : Valuation τ sig (Elt F)) : after hostOps0 V (Proc.devRef .tc main_c) = Cert.ReferenceIdeal.Read.val_main_c (F := F) := by
  simp only [hostOps0]; after_results_simp <;> rfl
theorem first_main_c_7 (V : Valuation τ sig (Elt F)) : after hostOps0 V (Proc.devRef .tc main_c_7) = Cert.ReferenceIdeal.Read.val_main_c_7 (F := F) := by
  simp only [hostOps0]; after_results_simp <;> rfl
/-- The first run does not write the image array. -/
theorem first_main_arg0 (V : Valuation τ sig (Elt F)) : after hostOps0 V (Proc.devRef .tc main_arg0) = V (Proc.devRef .tc main_arg0) := by
  simp only [hostOps0]; after_results_simp <;> rfl

/-! ## Second run: the clamped integer coordinates -/

/-- The seven short stretches of the second run, from contents `W`. -/
abbrev second (W : Valuation τ sig (Elt F)) : Valuation τ sig (Elt F) :=
  after hostOps0_7 (after hostOps0_6 (after hostOps0_5 (after hostOps0_4 (after hostOps0_3 (after hostOps0_2 (after hostOps0_1 (W)))))))

theorem second_keeps_main_arg0 (W : Valuation τ sig (Elt F)) : second W (Proc.devRef .tc main_arg0) = W (Proc.devRef .tc main_arg0) := by
  simp only [second, hostOps0_1, hostOps0_2, hostOps0_3, hostOps0_4, hostOps0_5, hostOps0_6, hostOps0_7]; after_results_simp <;> rfl
theorem second_keeps_main_v24 (W : Valuation τ sig (Elt F)) : second W (Proc.devRef .tc main_v24) = W (Proc.devRef .tc main_v24) := by
  simp only [second, hostOps0_1, hostOps0_2, hostOps0_3, hostOps0_4, hostOps0_5, hostOps0_6, hostOps0_7]; after_results_simp <;> rfl
theorem second_keeps_main_v27 (W : Valuation τ sig (Elt F)) : second W (Proc.devRef .tc main_v27) = W (Proc.devRef .tc main_v27) := by
  simp only [second, hostOps0_1, hostOps0_2, hostOps0_3, hostOps0_4, hostOps0_5, hostOps0_6, hostOps0_7]; after_results_simp <;> rfl
theorem second_keeps_main_v30 (W : Valuation τ sig (Elt F)) : second W (Proc.devRef .tc main_v30) = W (Proc.devRef .tc main_v30) := by
  simp only [second, hostOps0_1, hostOps0_2, hostOps0_3, hostOps0_4, hostOps0_5, hostOps0_6, hostOps0_7]; after_results_simp <;> rfl
theorem second_keeps_main_v33 (W : Valuation τ sig (Elt F)) : second W (Proc.devRef .tc main_v33) = W (Proc.devRef .tc main_v33) := by
  simp only [second, hostOps0_1, hostOps0_2, hostOps0_3, hostOps0_4, hostOps0_5, hostOps0_6, hostOps0_7]; after_results_simp <;> rfl

/-- `main_v35`: a floor (or floor plus one) as an integer, clamped to [0, 511]. -/
theorem second_main_v35 (V : Valuation τ sig (Elt F)) :
    second (after hostOps0 V) (Proc.devRef .tc main_v35) = Cert.ReferenceIdeal.Read.val_main_v35 (F := F) (V (Proc.devRef .tc main_arg1)) := by
  generalize hW : after hostOps0 V = W
  simp only [second, hostOps0_1, hostOps0_2, hostOps0_3, hostOps0_4, hostOps0_5, hostOps0_6, hostOps0_7]; after_results_simp
  subst hW
  rw [first_main_v34, first_main_c, first_main_c_7]
  rfl
/-- `main_v37`: a floor (or floor plus one) as an integer, clamped to [0, 511]. -/
theorem second_main_v37 (V : Valuation τ sig (Elt F)) :
    second (after hostOps0 V) (Proc.devRef .tc main_v37) = Cert.ReferenceIdeal.Read.val_main_v37 (F := F) (V (Proc.devRef .tc main_arg1)) := by
  generalize hW : after hostOps0 V = W
  simp only [second, hostOps0_1, hostOps0_2, hostOps0_3, hostOps0_4, hostOps0_5, hostOps0_6, hostOps0_7]; after_results_simp
  subst hW
  rw [first_main_v19]
  rfl
/-- `main_v39`: a floor (or floor plus one) as an integer, clamped to [0, 511]. -/
theorem second_main_v39 (V : Valuation τ sig (Elt F)) :
    second (after hostOps0 V) (Proc.devRef .tc main_v39) = Cert.ReferenceIdeal.Read.val_main_v39 (F := F) (V (Proc.devRef .tc main_arg1)) := by
  generalize hW : after hostOps0 V = W
  simp only [second, hostOps0_1, hostOps0_2, hostOps0_3, hostOps0_4, hostOps0_5, hostOps0_6, hostOps0_7]; after_results_simp
  subst hW
  rw [first_main_v17]
  rfl
/-- `main_v41`: a floor (or floor plus one) as an integer, clamped to [0, 511]. -/
theorem second_main_v41 (V : Valuation τ sig (Elt F)) :
    second (after hostOps0 V) (Proc.devRef .tc main_v41) = Cert.ReferenceIdeal.Read.val_main_v41 (F := F) (V (Proc.devRef .tc main_arg1)) := by
  generalize hW : after hostOps0 V = W
  simp only [second, hostOps0_1, hostOps0_2, hostOps0_3, hostOps0_4, hostOps0_5, hostOps0_6, hostOps0_7]; after_results_simp
  subst hW
  rw [first_main_v21]
  rfl

end Cert.BlendStages

end
-- ==== Proof.HostCornersN.lean ====
/-
  The two upper (north) corner images as the third run of host lines leaves them.

  Each corner image is `images[b, y, x]`: the index triple (image number, clamped row, clamped column), each coordinate
  wrapped by `select (c < 0) (c + extent) c` and given a trailing unit axis, the three joined along that axis, and the
  image rows gathered at the triples. The third run is read from contents left unnamed. The gather and the join are taken
  apart by hand (a rewriting pass does not enter a join's pieces), and each piece is read on its own: the image-number
  piece is a constant of the program; the row and column pieces end at the clamped coordinates the run started from,
  which the second run's stages then name. Everything is the reference's stage of the same name.
-/
import proofs.«110488_j13065290514713_2_alg».proof.Proof.HostStages
import proofs.«110488_j13065290514713_2_alg».proof.Proof.LibNary3

set_option maxRecDepth 16384

noncomputable section

namespace Cert.BlendStages

open Cert.KernelIdeal Cert.KernelIdeal.Gen Cert.KernelIdeal.Blend Cert.Nary3
open Idealize.ShloMosaic Idealize.ShloMosaic.TcCoe Idealize.SL.Sem Idealize.ShloMosaic.StableHlo

variable {F : FTy → Type} [FloatOps F]

set_option maxHeartbeats 8000000 in
/-- `main_v64`: the image rows at (image number, clamped row `main_v39`, clamped column `main_v35`). -/
theorem third_main_v64 (V : Valuation τ sig (Elt F)) :
    after hostOps0_8 (second (after hostOps0 V)) (Proc.devRef .tc main_v64)
      = Cert.ReferenceIdeal.Read.val_main_v64 (F := F) (V (Proc.devRef .tc main_arg0)) (V (Proc.devRef .tc main_arg1)) := by
  generalize hW : second (after hostOps0 V) = W
  simp only [hostOps0_8]
  simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
  unfold Cert.ReferenceIdeal.Read.val_main_v64 Cert.ReferenceIdeal.Read.val_main_v63
  refine congrArg₂ (Host.gather _) ?_ (concat3_congr _ _ _ ?_ ?_ ?_)
  · subst hW
    rw [second_keeps_main_arg0, first_main_arg0]
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v39]
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v35]
    rfl

set_option maxHeartbeats 8000000 in
/-- `main_v87`: the image rows at (image number, clamped row `main_v39`, clamped column `main_v37`). -/
theorem third_main_v87 (V : Valuation τ sig (Elt F)) :
    after hostOps0_8 (second (after hostOps0 V)) (Proc.devRef .tc main_v87)
      = Cert.ReferenceIdeal.Read.val_main_v87 (F := F) (V (Proc.devRef .tc main_arg0)) (V (Proc.devRef .tc main_arg1)) := by
  generalize hW : second (after hostOps0 V) = W
  simp only [hostOps0_8]
  simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
  unfold Cert.ReferenceIdeal.Read.val_main_v87 Cert.ReferenceIdeal.Read.val_main_v86
  refine congrArg₂ (Host.gather _) ?_ (concat3_congr _ _ _ ?_ ?_ ?_)
  · subst hW
    rw [second_keeps_main_arg0, first_main_arg0]
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v39]
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v37]
    rfl

end Cert.BlendStages

end
-- ==== Proof.HostCornersS.lean ====
/-
  The two lower (south) corner images as the third run of host lines leaves them.

  Each corner image is `images[b, y, x]`: the index triple (image number, clamped row, clamped column), each coordinate
  wrapped by `select (c < 0) (c + extent) c` and given a trailing unit axis, the three joined along that axis, and the
  image rows gathered at the triples. The third run is read from contents left unnamed. The gather and the join are taken
  apart by hand (a rewriting pass does not enter a join's pieces), and each piece is read on its own: the image-number
  piece is a constant of the program; the row and column pieces end at the clamped coordinates the run started from,
  which the second run's stages then name. Everything is the reference's stage of the same name.
-/
import proofs.«110488_j13065290514713_2_alg».proof.Proof.HostStages
import proofs.«110488_j13065290514713_2_alg».proof.Proof.LibNary3

set_option maxRecDepth 16384

noncomputable section

namespace Cert.BlendStages

open Cert.KernelIdeal Cert.KernelIdeal.Gen Cert.KernelIdeal.Blend Cert.Nary3
open Idealize.ShloMosaic Idealize.ShloMosaic.TcCoe Idealize.SL.Sem Idealize.ShloMosaic.StableHlo

variable {F : FTy → Type} [FloatOps F]

set_option maxHeartbeats 8000000 in
/-- `main_v110`: the image rows at (image number, clamped row `main_v41`, clamped column `main_v35`). -/
theorem third_main_v110 (V : Valuation τ sig (Elt F)) :
    after hostOps0_8 (second (after hostOps0 V)) (Proc.devRef .tc main_v110)
      = Cert.ReferenceIdeal.Read.val_main_v110 (F := F) (V (Proc.devRef .tc main_arg0)) (V (Proc.devRef .tc main_arg1)) := by
  generalize hW : second (after hostOps0 V) = W
  simp only [hostOps0_8]
  simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
  unfold Cert.ReferenceIdeal.Read.val_main_v110 Cert.ReferenceIdeal.Read.val_main_v109
  refine congrArg₂ (Host.gather _) ?_ (concat3_congr _ _ _ ?_ ?_ ?_)
  · subst hW
    rw [second_keeps_main_arg0, first_main_arg0]
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v41]
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v35]
    rfl

set_option maxHeartbeats 8000000 in
/-- `main_v133`: the image rows at (image number, clamped row `main_v41`, clamped column `main_v37`). -/
theorem third_main_v133 (V : Valuation τ sig (Elt F)) :
    after hostOps0_8 (second (after hostOps0 V)) (Proc.devRef .tc main_v133)
      = Cert.ReferenceIdeal.Read.val_main_v133 (F := F) (V (Proc.devRef .tc main_arg0)) (V (Proc.devRef .tc main_arg1)) := by
  generalize hW : second (after hostOps0 V) = W
  simp only [hostOps0_8]
  simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
  unfold Cert.ReferenceIdeal.Read.val_main_v133 Cert.ReferenceIdeal.Read.val_main_v132
  refine congrArg₂ (Host.gather _) ?_ (concat3_congr _ _ _ ?_ ?_ ?_)
  · subst hW
    rw [second_keeps_main_arg0, first_main_arg0]
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v41]
    rfl
  · simp (disch := decide) only [after_cons, after_nil,
      nullary_result', unary_result', binary_result', ternary_result', quaternary_result', reshape_result', nary3_result', pick3_zero, pick3_one, pick3_two,
      unaryIndexed_result', binaryIndexed_result',
      nullary_result_ne', unary_result_ne', binary_result_ne', ternary_result_ne', quaternary_result_ne', reshape_result_ne',
      nary_result_ne', unaryIndexed_result_ne', binaryIndexed_result_ne']
    subst hW
    rw [second_main_v37]
    rfl

end Cert.BlendStages

end
-- ==== Proof.HostGathers.lean ====
/-
  The three runs of host lines composed: the eight arrays the region finds are the reference's stages.

  What the region finds is the third run after the second after the first. The four weight maps are written by the first
  run and pass through the other two untouched; the four corner images are the third run's gathers.
-/
import proofs.«110488_j13065290514713_2_alg».proof.Proof.HostCornersN
import proofs.«110488_j13065290514713_2_alg».proof.Proof.HostCornersS

set_option maxRecDepth 16384

noncomputable section

namespace Cert.BlendStages

open Cert.KernelIdeal Cert.KernelIdeal.Gen Cert.KernelIdeal.Blend
open Idealize.ShloMosaic Idealize.ShloMosaic.TcCoe Idealize.SL.Sem Idealize.ShloMosaic.StableHlo

variable {F : FTy → Type} [FloatOps F]

theorem third_keeps_main_v24 (W : Valuation τ sig (Elt F)) : after hostOps0_8 W (Proc.devRef .tc main_v24) = W (Proc.devRef .tc main_v24) := by
  simp only [hostOps0_8]; after_results_simp <;> rfl
theorem third_keeps_main_v27 (W : Valuation τ sig (Elt F)) : after hostOps0_8 W (Proc.devRef .tc main_v27) = W (Proc.devRef .tc main_v27) := by
  simp only [hostOps0_8]; after_results_simp <;> rfl
theorem third_keeps_main_v30 (W : Valuation τ sig (Elt F)) : after hostOps0_8 W (Proc.devRef .tc main_v30) = W (Proc.devRef .tc main_v30) := by
  simp only [hostOps0_8]; after_results_simp <;> rfl
theorem third_keeps_main_v33 (W : Valuation τ sig (Elt F)) : after hostOps0_8 W (Proc.devRef .tc main_v33) = W (Proc.devRef .tc main_v33) := by
  simp only [hostOps0_8]; after_results_simp <;> rfl

variable (m : (ℓ : Loc nD τ sig) → Buf (Elt F) ℓ)

/-- What the region finds is the third run after the second after the first. -/
theorem entry_split (c : Dev nD) (b : Ref sig .tc) :
    entry m c b = after hostOps0_8 (second (after hostOps0 (fun b => m (c, b)))) b := by
  dsimp only [entry, second]
  simp only [List.flatten_cons, List.flatten_nil, List.append_nil, StableHlo.after_append]

theorem host_main_v24 (c : Dev nD) : entry m c main_v24
    = Cert.ReferenceIdeal.Read.val_main_v24 (F := F) (m ((c.tc : Thread nD τ).loc main_arg1)) := by
  rw [entry_split, third_keeps_main_v24, second_keeps_main_v24, first_main_v24]
theorem host_main_v27 (c : Dev nD) : entry m c main_v27
    = Cert.ReferenceIdeal.Read.val_main_v27 (F := F) (m ((c.tc : Thread nD τ).loc main_arg1)) := by
  rw [entry_split, third_keeps_main_v27, second_keeps_main_v27, first_main_v27]
theorem host_main_v30 (c : Dev nD) : entry m c main_v30
    = Cert.ReferenceIdeal.Read.val_main_v30 (F := F) (m ((c.tc : Thread nD τ).loc main_arg1)) := by
  rw [entry_split, third_keeps_main_v30, second_keeps_main_v30, first_main_v30]
theorem host_main_v33 (c : Dev nD) : entry m c main_v33
    = Cert.ReferenceIdeal.Read.val_main_v33 (F := F) (m ((c.tc : Thread nD τ).loc main_arg1)) := by
  rw [entry_split, third_keeps_main_v33, second_keeps_main_v33, first_main_v33]
theorem host_main_v64 (c : Dev nD) : entry m c main_v64
    = Cert.ReferenceIdeal.Read.val_main_v64 (F := F) (m ((c.tc : Thread nD τ).loc main_arg0)) (m ((c.tc : Thread nD τ).loc main_arg1)) := by
  rw [entry_split, third_main_v64]
theorem host_main_v87 (c : Dev nD) : entry m c main_v87
    = Cert.ReferenceIdeal.Read.val_main_v87 (F := F) (m ((c.tc : Thread nD τ).loc main_arg0)) (m ((c.tc : Thread nD τ).loc main_arg1)) := by
  rw [entry_split, third_main_v87]
theorem host_main_v110 (c : Dev nD) : entry m c main_v110
    = Cert.ReferenceIdeal.Read.val_main_v110 (F := F) (m ((c.tc : Thread nD τ).loc main_arg0)) (m ((c.tc : Thread nD τ).loc main_arg1)) := by
  rw [entry_split, third_main_v110]
theorem host_main_v133 (c : Dev nD) : entry m c main_v133
    = Cert.ReferenceIdeal.Read.val_main_v133 (F := F) (m ((c.tc : Thread nD τ).loc main_arg0)) (m ((c.tc : Thread nD τ).loc main_arg1)) := by
  rw [entry_split, third_main_v133]

end Cert.BlendStages

end
-- ==== Proof.Bridge.lean ====
/-
  The two programs' results are one function of the arguments.

  Each of the eight arrays the region's windows sit over is the reference's stage of the same name at the same two
  arguments (Proof/HostStages.lean, Proof/HostGathers.lean). The reference then forms, entry by entry,
      ((w_nw · i_nw + w_ne · i_ne) + w_sw · i_sw) + w_se · i_se,
  each weight map given a trailing unit axis and repeated along the 16 channels: read at an entry, that is the weight at
  the entry's first three coordinates times the corner image's entry — the whole-array blend the region's blocks
  assemble (Proof/KernelIdealValue.lean), with the sums in the same order. Nothing about the extended reals is used.
-/
import proofs.«110488_j13065290514713_2_alg».proof.Proof.KernelIdealValue
import proofs.«110488_j13065290514713_2_alg».proof.Proof.HostGathers

set_option maxRecDepth 16384

noncomputable section

namespace Cert.BlendBridge

open Cert.KernelIdeal Cert.KernelIdeal.Gen Cert.KernelIdeal.Blend Cert.LastAxis Cert.BlendStages
open Idealize.ShloMosaic Idealize.ShloMosaic.TcCoe Idealize.SL.Sem

variable {F : FTy → Type} [FloatOps F]
variable (m : (ℓ : Loc nD τ sig) → Buf (Elt F) ℓ)

/-- The first three coordinates of an entry, as the reference's two broadcasts compose them. -/
theorem lead_134 (i : S16x384x384x16.Idx) : Cert.ReferenceIdeal.Read.idx_main_v134 (Cert.ReferenceIdeal.Read.idx_main_v135 i) = lead i :=
  funext fun a => match a with
    | ⟨0, _⟩ => rfl
    | ⟨1, _⟩ => rfl
    | ⟨2, _⟩ => rfl
theorem lead_137 (i : S16x384x384x16.Idx) : Cert.ReferenceIdeal.Read.idx_main_v137 (Cert.ReferenceIdeal.Read.idx_main_v138 i) = lead i :=
  funext fun a => match a with
    | ⟨0, _⟩ => rfl
    | ⟨1, _⟩ => rfl
    | ⟨2, _⟩ => rfl
theorem lead_141 (i : S16x384x384x16.Idx) : Cert.ReferenceIdeal.Read.idx_main_v141 (Cert.ReferenceIdeal.Read.idx_main_v142 i) = lead i :=
  funext fun a => match a with
    | ⟨0, _⟩ => rfl
    | ⟨1, _⟩ => rfl
    | ⟨2, _⟩ => rfl
theorem lead_145 (i : S16x384x384x16.Idx) : Cert.ReferenceIdeal.Read.idx_main_v145 (Cert.ReferenceIdeal.Read.idx_main_v146 i) = lead i :=
  funext fun a => match a with
    | ⟨0, _⟩ => rfl
    | ⟨1, _⟩ => rfl
    | ⟨2, _⟩ => rfl

/-- The array the region's blocks assemble is the reference's last stage at the same arguments. -/
theorem same (c : Dev nD) :
    BlendValue.blendAll (entry m c main_v64) (entry m c main_v87) (entry m c main_v110) (entry m c main_v133) (entry m c main_v24) (entry m c main_v27) (entry m c main_v30) (entry m c main_v33)
      = Cert.ReferenceIdeal.Read.val_main_v148 (F := F) (m ((c.tc : Thread nD τ).loc main_arg0)) (m ((c.tc : Thread nD τ).loc main_arg1)) := by
  rw [host_main_v64, host_main_v87, host_main_v110, host_main_v133, host_main_v24, host_main_v27, host_main_v30, host_main_v33]
  funext i
  rw [Cert.ReferenceIdeal.Read.val_main_v148_apply, Cert.ReferenceIdeal.Read.val_main_v144_apply, Cert.ReferenceIdeal.Read.val_main_v140_apply,
    Cert.ReferenceIdeal.Read.val_main_v136_apply, Cert.ReferenceIdeal.Read.val_main_v139_apply, Cert.ReferenceIdeal.Read.val_main_v143_apply, Cert.ReferenceIdeal.Read.val_main_v147_apply,
    Cert.ReferenceIdeal.Read.val_main_v135_apply, Cert.ReferenceIdeal.Read.val_main_v134_apply, Cert.ReferenceIdeal.Read.val_main_v138_apply, Cert.ReferenceIdeal.Read.val_main_v137_apply,
    Cert.ReferenceIdeal.Read.val_main_v142_apply, Cert.ReferenceIdeal.Read.val_main_v141_apply, Cert.ReferenceIdeal.Read.val_main_v146_apply, Cert.ReferenceIdeal.Read.val_main_v145_apply,
    lead_134, lead_137, lead_141, lead_145]
  rfl

end Cert.BlendBridge

end
-- ==== Proof.lean ====
/-
  The certificate of the bilinear sampler's blend kernel against its jnp reference.

  Both programs compute, from an image batch [16,512,512,16] and sampling coordinates [16,384,384,2] in [-1,1]: the pixel
  coordinates xs = ½·(s_x + 1)·511, ys = ½·(s_y + 1)·511; their floors and floors + 1; the four bilinear weights
  (x1 − xs)(y1 − ys), (xs − x0)(y1 − ys), (x1 − xs)(ys − y0), (xs − x0)(ys − y0); the four corner images gathered at
  the floors clamped to [0, 511]; and the weighted sum of the corners, the sum taken left to right. The kernel program
  forms the weights and the corners on the host and the weighted sum in one region over a 16 × 24 grid of row blocks;
  the reference forms everything on the host. The host lines are the same lines and the sum is the same sum in the
  same order, so no law of the extended reals is used and the precondition is never opened: the two results are
  literally one function of the arguments (Proof/HostStages.lean, Proof/HostGathers.lean, Proof/Bridge.lean), the region's blocks tiling the result
  (Proof/KernelIdealValue.lean). The frames: each kernel program runs to the end without a fault and leaves its
  arguments as launched (Proof/KernelRun.lean at the word level, Proof/KernelIdealRun.lean read over the extended
  reals); the reference's frame is its run with the result dropped. The idealization rewrote nothing.
-/
import proofs.«110488_j13065290514713_2_alg».proof.Defs
import proofs.«110488_j13065290514713_2_alg».proof.Proof.Gen.Kernel
import proofs.«110488_j13065290514713_2_alg».proof.Proof.Gen.Kernel.Skeleton
import proofs.«110488_j13065290514713_2_alg».proof.Proof.Gen.Kernel.Launch
import proofs.«110488_j13065290514713_2_alg».proof.Proof.Gen.Kernel.Points
import proofs.«110488_j13065290514713_2_alg».proof.Proof.Gen.KernelIdeal
import proofs.«110488_j13065290514713_2_alg».proof.Proof.Gen.KernelIdeal.Skeleton
import proofs.«110488_j13065290514713_2_alg».proof.Proof.Gen.KernelIdeal.Launch
import proofs.«110488_j13065290514713_2_alg».proof.Proof.Gen.KernelIdeal.Points
import proofs.«110488_j13065290514713_2_alg».proof.Proof.Gen.ReferenceIdeal
import proofs.«110488_j13065290514713_2_alg».proof.Proof.Gen.Pre_finite_inputs
import proofs.«110488_j13065290514713_2_alg».proof.Proof.Gen.ReferenceIdeal.Run
import proofs.«110488_j13065290514713_2_alg».proof.Proof.Gen.ReferenceIdeal.Read
import proofs.«110488_j13065290514713_2_alg».proof.Proof.KernelRun
import proofs.«110488_j13065290514713_2_alg».proof.Proof.KernelIdealRun
import proofs.«110488_j13065290514713_2_alg».proof.Proof.KernelIdealValue
import proofs.«110488_j13065290514713_2_alg».proof.Proof.LibLastAxis
import proofs.«110488_j13065290514713_2_alg».proof.Proof.LibNary3
import proofs.«110488_j13065290514713_2_alg».proof.Proof.HostStages
import proofs.«110488_j13065290514713_2_alg».proof.Proof.HostCornersN
import proofs.«110488_j13065290514713_2_alg».proof.Proof.HostCornersS
import proofs.«110488_j13065290514713_2_alg».proof.Proof.HostGathers
import proofs.«110488_j13065290514713_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => Cert.Kernel.Blend.frame (F := Bits) m ρ

/-- So does the same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Blend.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the two arguments both programs end at the reference's last stage of those arguments:
    the kernel program because its blocks assemble that function (`BlendBridge.same`), the reference by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v148 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1.trans (Cert.BlendBridge.same (F := Ideal) m c), (h c).2⟩)
      (Cert.KernelIdeal.BlendValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v148_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
